-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x64 : Shape := ⟨2, ![128, 64]⟩
abbrev S64x32 : Shape := ⟨2, ![64, 32]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_arg4 : FVec F S64x32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  main_v23

def fn {F : FTy → Type} [FloatOps F] (main_arg0 : FVec F S4096x128 .f32) (main_arg1 : FVec F S4096x4096 .f32) (main_arg2 : FVec F S128x64 .f32) (main_arg3 : FVec F S64x32 .f32) (main_arg4 : FVec F S64x32 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_v13 main_v16
-- ==== Kernel.lean ====
abbrev S4096x128 : Shape := ⟨2, ![4096, 128]⟩
abbrev S4096x4096 : Shape := ⟨2, ![4096, 4096]⟩
abbrev S128x64 : Shape := ⟨2, ![128, 64]⟩
abbrev S64x32 : Shape := ⟨2, ![64, 32]⟩
abbrev S64x64 : Shape := ⟨2, ![64, 64]⟩
abbrev S4096x64 : Shape := ⟨2, ![4096, 64]⟩
abbrev S256x4096 : Shape := ⟨2, ![256, 4096]⟩
abbrev S256x64 : Shape := ⟨2, ![256, 64]⟩
abbrev S4096x32 : Shape := ⟨2, ![4096, 32]⟩
abbrev S256x32 : Shape := ⟨2, ![256, 32]⟩

abbrev nBuf : Space → Nat
  | .hbm => 14
  | .vmem => 19
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x64, .f32⟩
  | .hbm, ⟨3, _⟩ => ⟨S64x32, .f32⟩
  | .hbm, ⟨4, _⟩ => ⟨S64x32, .f32⟩
  | .hbm, ⟨5, _⟩ => ⟨S64x64, .f32⟩
  | .hbm, ⟨6, _⟩ => ⟨S64x64, .bf16⟩
  | .hbm, ⟨7, _⟩ => ⟨S4096x64, .bf16⟩
  | .hbm, ⟨8, _⟩ => ⟨S4096x64, .bf16⟩
  | .hbm, ⟨9, _⟩ => ⟨S4096x64, .f32⟩
  | .hbm, ⟨10, _⟩ => ⟨S4096x32, .f32⟩
  | .hbm, ⟨11, _⟩ => ⟨S4096x32, .f32⟩
  | .hbm, ⟨12, _⟩ => ⟨S4096x32, .bf16⟩
  | .hbm, ⟨13, _⟩ => ⟨S4096x4096, .f32⟩
  | .local _ .vmem, ⟨0, _⟩ => ⟨S4096x128, .f32⟩
  | .local _ .vmem, ⟨1, _⟩ => ⟨S128x64, .f32⟩
  | .local _ .vmem, ⟨2, _⟩ => ⟨S4096x64, .bf16⟩
  | .local _ .vmem, ⟨3, _⟩ => ⟨S256x4096, .f32⟩
  | .local _ .vmem, ⟨4, _⟩ => ⟨S256x4096, .f32⟩
  | .local _ .vmem, ⟨5, _⟩ => ⟨S4096x64, .bf16⟩
  | .local _ .vmem, ⟨6, _⟩ => ⟨S64x64, .bf16⟩
  | .local _ .vmem, ⟨7, _⟩ => ⟨S256x64, .bf16⟩
  | .local _ .vmem, ⟨8, _⟩ => ⟨S256x64, .bf16⟩
  | .local _ .vmem, ⟨9, _⟩ => ⟨S256x4096, .f32⟩
  | .local _ .vmem, ⟨10, _⟩ => ⟨S256x4096, .f32⟩
  | .local _ .vmem, ⟨11, _⟩ => ⟨S4096x64, .bf16⟩
  | .local _ .vmem, ⟨12, _⟩ => ⟨S256x64, .f32⟩
  | .local _ .vmem, ⟨13, _⟩ => ⟨S256x64, .f32⟩
  | .local _ .vmem, ⟨14, _⟩ => ⟨S256x32, .bf16⟩
  | .local _ .vmem, ⟨15, _⟩ => ⟨S256x32, .bf16⟩
  | .local _ .vmem, ⟨16, _⟩ => ⟨S4096x32, .bf16⟩
  | .local _ .vmem, ⟨17, _⟩ => ⟨S256x4096, .f32⟩
  | .local _ .vmem, ⟨18, _⟩ => ⟨S256x4096, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg2_1 : Ref sig .tc := ⟨.vmem, 18, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem2_1 : DmaSem sig := 18

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x32 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x32 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  concatenates_S64x32_S64x32_S64x64_d1 : Shape.Concatenates [S64x32, S64x32] S64x64 1
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  packedbf16_S4096x64_S4096x64_0_0 : (Rect.unit (s := S4096x64) ![0, 0] S4096x64.size inb_S4096x64_S4096x64_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S4096x64_S4096x64 : S4096x64.ShapeCasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S256x64_S256x64_0_0 : ∀ a, (![0, 0] : Fin 2 → Nat) a + S256x64.size a ≤ S256x64.size a
  h_S256x64 : 0 < S256x64.numel
  packedbf16_S256x64_S256x64_0_0 : (Rect.unit (s := S256x64) ![0, 0] S256x64.size inb_S256x64_S256x64_0_0).PackedRows (EltTy.packing .bf16)
  slices_S4096x64_S4096x32_0_0 : S4096x64.Slices ![0, 0] S4096x32
  slices_S4096x64_S4096x32_0_32 : S4096x64.Slices ![0, 32] S4096x32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  dot_S4096x128_S128x64_S4096x64_1_0_0_1_n_n_wf : DotDims.WF S4096x128 S128x64 S4096x64 [1] [0] [0] [1] [] []
  dot_S256x4096_S4096x64_S256x64_1_0_0_1_n_n_wf : DotDims.WF S256x4096 S4096x64 S256x64 [1] [0] [0] [1] [] []
  dot_S256x64_S64x64_S256x64_1_0_0_1_n_n_wf : DotDims.WF S256x64 S64x64 S256x64 [1] [0] [0] [1] [] []
  dot_S256x32_S4096x32_S256x4096_1_1_0_0_n_n_wf : DotDims.WF S256x32 S4096x32 S256x4096 [1] [1] [0] [0] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S4096x64.size a
  hwx1_1 : ∀ i : grid1.Coords, EltTy.bits .bf16 = 32 ∨ (Rect.block (s := S4096x64) S4096x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .bf16 = 32 ∨ (Rect.block (s := S64x64) S64x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S4096x64.size a
  hwx1_3 : ∀ i : grid1.Coords, EltTy.bits .bf16 = 32 ∨ (Rect.block (s := S4096x64) S256x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x64.size a ≤ S4096x64.size a
  hwx2_1 : ∀ i : grid2.Coords, EltTy.bits .bf16 = 32 ∨ (Rect.block (s := S4096x64) S4096x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S4096x64.size a
  hwx2_2 : ∀ i : grid2.Coords, EltTy.bits .f32 = 32 ∨ (Rect.block (s := S4096x64) S256x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x32.size a ≤ S4096x32.size a
  hwx3_0 : ∀ i : grid3.Coords, EltTy.bits .bf16 = 32 ∨ (Rect.block (s := S4096x32) S256x32.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x32.size a ≤ S4096x32.size a
  hwx3_1 : ∀ i : grid3.Coords, EltTy.bits .bf16 = 32 ∨ (Rect.block (s := S4096x32) S4096x32.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x4096.size a ≤ S4096x4096.size a
  hwx3_2 : ∀ i : grid3.Coords, EltTy.bits .f32 = 32 ∨ (Rect.block (s := S4096x4096) S256x4096.size (cc3_transform_2 i) (hinb3_2 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x32_S4096x32_S256x4096_1_1_0_0_n_n : DotDims S256x32 S4096x32 S256x4096 where
  lhsContracting := [1]
  rhsContracting := [1]
  lhsNonContracting := [0]
  rhsNonContracting := [0]
  lhsBatch := []
  rhsBatch := []
  wf := dot_S256x32_S4096x32_S256x4096_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S4096x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S256x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v7) S256x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S4096x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v8) S256x4096.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x64 : Shape := ⟨2, ![128, 64]⟩
abbrev S64x32 : Shape := ⟨2, ![64, 32]⟩
abbrev S4096x64 : Shape := ⟨2, ![4096, 64]⟩
abbrev S_ : Shape := ⟨0, ![]⟩
abbrev S4096x32 : Shape := ⟨2, ![4096, 32]⟩
abbrev S32x4096 : Shape := ⟨2, ![32, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x64, .f32⟩
  | .hbm, ⟨3, _⟩ => ⟨S64x32, .f32⟩
  | .hbm, ⟨4, _⟩ => ⟨S64x32, .f32⟩
  | .hbm, ⟨5, _⟩ => ⟨S4096x64, .f32⟩
  | .hbm, ⟨6, _⟩ => ⟨S4096x64, .f32⟩
  | .hbm, ⟨7, _⟩ => ⟨S_, .f32⟩
  | .hbm, ⟨8, _⟩ => ⟨S4096x64, .f32⟩
  | .hbm, ⟨9, _⟩ => ⟨S4096x64, .f32⟩
  | .hbm, ⟨10, _⟩ => ⟨S4096x32, .f32⟩
  | .hbm, ⟨11, _⟩ => ⟨S4096x32, .f32⟩
  | .hbm, ⟨12, _⟩ => ⟨S4096x32, .f32⟩
  | .hbm, ⟨13, _⟩ => ⟨S4096x32, .f32⟩
  | .hbm, ⟨14, _⟩ => ⟨S32x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  transposes_S4096x32_S32x4096_1_0 : S4096x32.Transposes [1, 0] S32x4096
  bcast_S_S4096x4096 : S_.BroadcastsInDim S4096x4096 (![] : Fin 0 → Fin S4096x4096.rank)
  dot_S4096x128_S128x64_S4096x64_1_0_0_1_n_n_wf : DotDims.WF S4096x128 S128x64 S4096x64 [1] [0] [0] [1] [] []
  dot_S4096x4096_S4096x64_S4096x64_1_0_0_1_n_n_wf : DotDims.WF S4096x4096 S4096x64 S4096x64 [1] [0] [0] [1] [] []
  dot_S4096x64_S64x32_S4096x32_1_0_0_1_n_n_wf : DotDims.WF S4096x64 S64x32 S4096x32 [1] [0] [0] [1] [] []
  dot_S4096x4096_S4096x32_S4096x32_1_0_0_1_n_n_wf : DotDims.WF S4096x4096 S4096x32 S4096x32 [1] [0] [0] [1] [] []
  dot_S4096x32_S32x4096_S4096x4096_1_0_0_1_n_n_wf : DotDims.WF S4096x32 S32x4096 S4096x4096 [1] [0] [0] [1] [] []

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x4096_S4096x32_S4096x32_1_0_0_1_n_n : DotDims S4096x4096 S4096x32 S4096x32 where
  lhsContracting := [1]
  rhsContracting := [0]
  lhsNonContracting := [0]
  rhsNonContracting := [1]
  lhsBatch := []
  rhsBatch := []
  wf := dot_S4096x4096_S4096x32_S4096x32_1_0_0_1_n_n_wf
def dot_S4096x32_S32x4096_S4096x4096_1_0_0_1_n_n : DotDims S4096x32 S32x4096 S4096x4096 where
  lhsContracting := [1]
  rhsContracting := [0]
  lhsNonContracting := [0]
  rhsNonContracting := [1]
  lhsBatch := []
  rhsBatch := []
  wf := dot_S4096x32_S32x4096_S4096x4096_1_0_0_1_n_n_wf

class Facts : Prop extends Facts₀ where

variable [Facts]
-- ==== Proof.KBody0.lean ====
/-
  The first kernel of the encoder (one point, whole arrays): what its body leaves in memory.

  The body reads the whole [4096, 128] feature matrix and the whole [128, 64] weight matrix and stores one
  [4096, 64] array: a single store covering the whole output buffer. So after the body the output buffer holds the
  stored value — a function of the two loaded arrays alone — and the input buffers are as they were. (The body
  also loads the output buffer before storing into it; the loaded value is not used.)
-/
import proofs.«116482_g15831249453334_cont_week2b_1002_2_alg».proof.Proof.Gen.Kernel.Launch
import proofs.«116482_g15831249453334_cont_week2b_1002_2_alg».proof.Proof.Gen.Kernel.Skeleton
import proofs.«116482_g15831249453334_cont_week2b_1002_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r0_0 : Rect S4096x128 := Rect.unit (s := S4096x128) ![0, 0] S4096x128.size inb_S4096x128_S4096x128_0_0
abbrev r0_1 : Rect S128x64 := Rect.unit (s := S128x64) ![0, 0] S128x64.size inb_S128x64_S128x64_0_0
abbrev r0_2 : Rect S4096x64 := Rect.unit (s := S4096x64) ![0, 0] S4096x64.size inb_S4096x64_S4096x64_0_0

/-- The output buffer after the body, from the two input buffers' contents: the one store, covering the buffer. -/
def out0_2 (x0 : Vec F S4096x128 .f32) (x1 : Vec F S128x64 .f32) : Vec F S4096x64 .bf16 :=
  View.canon [⟨r0_2, k0_pay1 (View.ld x0 r0_0) (View.ld x1 r0_1)⟩]

/-- The one store covers the output buffer. -/
theorem cover0_2 (p0 : Vec F S4096x64 .bf16) (y : S4096x64.Idx) :
    ∃ pc ∈ ([⟨r0_2, p0⟩] : List (View.Piece (Elt F) S4096x64 .bf16)), y ∈ pc.1.set :=
  View.cover_of_tiled [⟨r0_2, p0⟩] S4096x64.size (by rfl) y

set_option maxHeartbeats 1000000 in
/-- The body on whole buffers, the inputs' at contents `x0 x1` and the output's at anything, runs to the
    continuation with the inputs' as they were and the output's at `out0_2 x0 x1`. -/
theorem sound_kernel0 (c : Dev nD) (E : Set ℕ)
    (arg0 : Memref sig .tc .vmem S4096x128 .f32) (harg0 : arg0.IsWhole) (arg1 : Memref sig .tc .vmem S128x64 .f32) (harg1 : arg1.IsWhole)
    (arg2 : Memref sig .tc .vmem S4096x64 .bf16) (harg2 : arg2.IsWhole)
    (x0 : Vec F S4096x128 .f32) (x1 : Vec F S128x64 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__s1_body arg0 harg0 arg1 harg1 arg2 harg2) K := by
  simp only [cc0__s1_body_eq_skeleton]; unfold cc0__s1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.Kernel.Hand

end
-- ==== Proof.KBody1.lean ====
/-
  The second kernel of the encoder, one block of 256 rows: what its body leaves in memory.

  The body reads a [256, 4096] block of the adjacency matrix, the whole [4096, 64] support matrix and the whole
  [64, 64] weight matrix, and stores one [256, 64] block: a single store covering the whole output buffer. So after the
  body the output buffer holds the stored value — a function of the three loaded arrays alone — and the three
  input buffers are as they were. (The body also loads the output buffer before storing into it; the loaded value is
  not used.)
-/
import proofs.«116482_g15831249453334_cont_week2b_1002_2_alg».proof.Proof.Gen.Kernel.Launch
import proofs.«116482_g15831249453334_cont_week2b_1002_2_alg».proof.Proof.Gen.Kernel.Skeleton
import proofs.«116482_g15831249453334_cont_week2b_1002_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_0 : Rect S256x4096 := Rect.unit (s := S256x4096) ![0, 0] S256x4096.size inb_S256x4096_S256x4096_0_0
abbrev r1_1 : Rect S4096x64 := Rect.unit (s := S4096x64) ![0, 0] S4096x64.size inb_S4096x64_S4096x64_0_0
abbrev r1_2 : Rect S64x64 := Rect.unit (s := S64x64) ![0, 0] S64x64.size inb_S64x64_S64x64_0_0
abbrev r1_3 : Rect S256x64 := Rect.unit (s := S256x64) ![0, 0] S256x64.size inb_S256x64_S256x64_0_0

/-- The output buffer after the body, from the three input buffers' contents: the one store, covering the buffer. -/
def out1_3 (x0 : Vec F S256x4096 .f32) (x1 : Vec F S4096x64 .bf16) (x2 : Vec F S64x64 .bf16) : Vec F S256x64 .bf16 :=
  View.canon [⟨r1_3, k1_pay1 (View.ld x0 r1_0) (View.ld x1 r1_1) (View.ld x2 r1_2)⟩]

/-- The one store covers the output buffer. -/
theorem cover1_3 (p0 : Vec F S256x64 .bf16) (y : S256x64.Idx) :
    ∃ pc ∈ ([⟨r1_3, p0⟩] : List (View.Piece (Elt F) S256x64 .bf16)), y ∈ pc.1.set :=
  View.cover_of_tiled [⟨r1_3, p0⟩] S256x64.size (by rfl) y

set_option maxHeartbeats 1000000 in
/-- The body on whole buffers, the inputs' at contents `x0 x1 x2` and the output's at anything, runs to the
    continuation with the inputs' as they were and the output's at `out1_3 x0 x1 x2`. -/
theorem sound_kernel1 (c : Dev nD) (E : Set ℕ) (i : grid1.Coords)
    (arg1 : Memref sig .tc .vmem S256x4096 .f32) (harg1 : arg1.IsWhole) (arg2 : Memref sig .tc .vmem S4096x64 .bf16) (harg2 : arg2.IsWhole)
    (arg3 : Memref sig .tc .vmem S64x64 .bf16) (harg3 : arg3.IsWhole) (arg4 : Memref sig .tc .vmem S256x64 .bf16) (harg4 : arg4.IsWhole)
    (x0 : Vec F S256x4096 .f32) (x1 : Vec F S4096x64 .bf16) (x2 : Vec F S64x64 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__hw_body i arg1 harg1 arg2 harg2 arg3 harg3 arg4 harg4) K := by
  simp only [cc1__hw_body_eq_skeleton]; unfold cc1__hw_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

end Cert.Kernel.Hand

end
-- ==== Proof.KBody2.lean ====
/-
  The third kernel of the encoder, one block of 256 rows: what its body leaves in memory.

  The body reads a [256, 4096] block of the adjacency matrix and the whole [4096, 64] matrix of the hidden layer
  times the weights, and stores one [256, 64] block: a single store covering the whole output buffer. So after the
  body the output buffer holds the stored value — a function of the two loaded arrays alone — and the input
  buffers are as they were. (The body also loads the output buffer before storing into it; the loaded value is not
  used.)
-/
import proofs.«116482_g15831249453334_cont_week2b_1002_2_alg».proof.Proof.Gen.Kernel.Launch
import proofs.«116482_g15831249453334_cont_week2b_1002_2_alg».proof.Proof.Gen.Kernel.Skeleton
import proofs.«116482_g15831249453334_cont_week2b_1002_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r2_0 : Rect S256x4096 := Rect.unit (s := S256x4096) ![0, 0] S256x4096.size inb_S256x4096_S256x4096_0_0
abbrev r2_1 : Rect S4096x64 := Rect.unit (s := S4096x64) ![0, 0] S4096x64.size inb_S4096x64_S4096x64_0_0
abbrev r2_2 : Rect S256x64 := Rect.unit (s := S256x64) ![0, 0] S256x64.size inb_S256x64_S256x64_0_0

/-- The output buffer after the body, from the two input buffers' contents: the one store, covering the buffer. -/
def out2_2 (x0 : Vec F S256x4096 .f32) (x1 : Vec F S4096x64 .bf16) : Vec F S256x64 .f32 :=
  View.canon [⟨r2_2, k2_pay1 (View.ld x0 r2_0) (View.ld x1 r2_1)⟩]

/-- The one store covers the output buffer. -/
theorem cover2_2 (p0 : Vec F S256x64 .f32) (y : S256x64.Idx) :
    ∃ pc ∈ ([⟨r2_2, p0⟩] : List (View.Piece (Elt F) S256x64 .f32)), y ∈ pc.1.set :=
  View.cover_of_tiled [⟨r2_2, p0⟩] S256x64.size (by rfl) y

set_option maxHeartbeats 1000000 in
/-- The body on whole buffers, the inputs' at contents `x0 x1` and the output's at anything, runs to the
    continuation with the inputs' as they were and the output's at `out2_2 x0 x1`. -/
theorem sound_kernel2 (c : Dev nD) (E : Set ℕ) (i : grid2.Coords)
    (arg1 : Memref sig .tc .vmem S256x4096 .f32) (harg1 : arg1.IsWhole) (arg2 : Memref sig .tc .vmem S4096x64 .bf16) (harg2 : arg2.IsWhole)
    (arg3 : Memref sig .tc .vmem S256x64 .f32) (harg3 : arg3.IsWhole)
    (x0 : Vec F S256x4096 .f32) (x1 : Vec F S4096x64 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__mlv_body i arg1 harg1 arg2 harg2 arg3 harg3) K := by
  simp only [cc2__mlv_body_eq_skeleton]; unfold cc2__mlv_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

end Cert.Kernel.Hand

end
-- ==== Proof.KBody3.lean ====
/-
  The decoder kernel, one block of 256 rows: what its body leaves in memory.

  The body reads a [256, 32] block of the latent matrix and the whole [4096, 32] latent matrix and stores one
  [256, 4096] block: a single store covering the whole output buffer. So after the body the output buffer holds the
  stored value — a function of the two loaded arrays alone — and the input buffers are as they were. (The body
  also loads the output buffer before storing into it; the loaded value is not used.)
-/
import proofs.«116482_g15831249453334_cont_week2b_1002_2_alg».proof.Proof.Gen.Kernel.Launch
import proofs.«116482_g15831249453334_cont_week2b_1002_2_alg».proof.Proof.Gen.Kernel.Skeleton
import proofs.«116482_g15831249453334_cont_week2b_1002_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r3_0 : Rect S256x32 := Rect.unit (s := S256x32) ![0, 0] S256x32.size inb_S256x32_S256x32_0_0
abbrev r3_1 : Rect S4096x32 := Rect.unit (s := S4096x32) ![0, 0] S4096x32.size inb_S4096x32_S4096x32_0_0
abbrev r3_2 : Rect S256x4096 := Rect.unit (s := S256x4096) ![0, 0] S256x4096.size inb_S256x4096_S256x4096_0_0

/-- The output buffer after the body, from the two input buffers' contents: the one store, covering the buffer. -/
def out3_2 (x0 : Vec F S256x32 .bf16) (x1 : Vec F S4096x32 .bf16) : Vec F S256x4096 .f32 :=
  View.canon [⟨r3_2, k3_pay1 (View.ld x0 r3_0) (View.ld x1 r3_1)⟩]

/-- The one store covers the output buffer. -/
theorem cover3_2 (p0 : Vec F S256x4096 .f32) (y : S256x4096.Idx) :
    ∃ pc ∈ ([⟨r3_2, p0⟩] : List (View.Piece (Elt F) S256x4096 .f32)), y ∈ pc.1.set :=
  View.cover_of_tiled [⟨r3_2, p0⟩] S256x4096.size (by rfl) y

set_option maxHeartbeats 1000000 in
/-- The body on whole buffers, the inputs' at contents `x0 x1` and the output's at anything, runs to the
    continuation with the inputs' as they were and the output's at `out3_2 x0 x1`. -/
theorem sound_kernel3 (c : Dev nD) (E : Set ℕ) (i : grid3.Coords)
    (arg1 : Memref sig .tc .vmem S256x32 .bf16) (harg1 : arg1.IsWhole) (arg2 : Memref sig .tc .vmem S4096x32 .bf16) (harg2 : arg2.IsWhole)
    (arg3 : Memref sig .tc .vmem S256x4096 .f32) (harg3 : arg3.IsWhole)
    (x0 : Vec F S256x32 .bf16) (x1 : Vec F S4096x32 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__dec_body i arg1 harg1 arg2 harg2 arg3 harg3) K := by
  simp only [cc3__dec_body_eq_skeleton]; unfold cc3__dec_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

end Cert.Kernel.Hand

end
-- ==== Proof.KData.lean ====
/-
  The four kernels' pipelines: what each window's staging buffer holds at each grid point, and that each body
  does what the pipeline needs of it.

  Every kernel here has the same plain shape. At grid point t each INPUT window's staging buffer holds that window's
  block of its array, as the array stood when the kernel was entered (fetched at that point, or still there from an
  earlier point when the block index has not moved: the whole-array windows are fetched once). The body leaves the
  input buffers alone and overwrites the OUTPUT window's buffer with a function of the input blocks. Nothing else
  is touched: the rest of the scoped memory and the generator register pass through, no core owes another anything.
  The decoder kernel reads ONE array through two windows (a row block and the whole array): each window holds the
  array at half of the full share, which is enough to read it.
-/
import proofs.«116482_g15831249453334_cont_week2b_1002_2_alg».proof.Proof.KBody0
import proofs.«116482_g15831249453334_cont_week2b_1002_2_alg».proof.Proof.KBody1
import proofs.«116482_g15831249453334_cont_week2b_1002_2_alg».proof.Proof.KBody2
import proofs.«116482_g15831249453334_cont_week2b_1002_2_alg».proof.Proof.KBody3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a kernel is entered: every kernel's half is stated at this parameter
variable (V : (c : Dev nD) → (b : Ref sig .tc) → Buf (Elt F) ((c : Thread nD τ).loc b))

/-! # The first kernel: x · W₁ -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The pipeline's data: the arrays as found; after the body the inputs' buffers at their blocks and the output's at
    the body's function of them; the untouched rest as invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # The second kernel: max(adj · s, 0) · [W₂ | W₃], 256 rows at a point -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

/-! # The third kernel: adj · (the second kernel's result), 256 rows at a point -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

/-! # The decoder kernel: logistic(z · zᵀ), 256 rows at a point; both input windows read the one array z -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The decoder's data: as the others', except that the one input array is held at two half shares, one per window. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KRun.lean ====
/-
  The whole program's run: the four kernels among the host's lines, from the launch to the return.

  Between two items of the program (a stretch of host lines or a kernel) each core holds every unscoped buffer whole,
  at contents that are a fold through the program from the launch memory: a stretch of host lines applies its
  operations; a kernel leaves its output array at what its pipeline's write-backs make of it (block t of the output
  is what the body stored at point t) and every other buffer as it found it — its inputs included, which it only
  reads. The generator register rides along at some state, and no core owes another anything.

  The decoder reads the latent matrix through two windows. At its entry the matrix's buffer, held whole, is split
  along the share into two halves, one per window; at its exit the halves — both still at the contents found —
  are joined again.

  The outcome, for any float values: every weakly fair execution terminates, and in every final memory each unscoped
  buffer holds the fold's last contents. Read at an argument, the fold walks back to the launch memory.
-/
import proofs.«116482_g15831249453334_cont_week2b_1002_2_alg».proof.Proof.KData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the program's items -/

/-- Core `c`'s buffers at launch. -/
abbrev W0 : Dev nD → Valuation τ sig (Elt F) := fun c b => m ((c : Dev nD), b)
/-- After the first stretch of host lines (the two weight matrices laid side by side, then rounded). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After kernel 0: its arrays at what the pipeline leaves, every other buffer as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After kernel 1: its arrays at what the pipeline leaves, every other buffer as before. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After kernel 2: its arrays at what the pipeline leaves, every other buffer as before. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the second stretch of host lines (the two halves of the columns, and the rounded left half). -/
abbrev W5 : Dev nD → Valuation τ sig (Elt F) := fun c => StableHlo.after hostOps3 (W4 m c)
abbrev V5 : (c : Dev nD) → (b : Ref sig .tc) → Buf (Elt F) ((c : Thread nD τ).loc b) := fun c b => W5 m c b
/-- After the decoder: its output array at what the pipeline leaves, every other buffer as before. -/
def W6 (c : Dev nD) : Valuation τ sig (Elt F) :=
  Function.update (W5 m c) (Proc.devRef .tc main_v8)
    (show Buf (Elt F) ((c : Thread nD τ).loc main_v8) from (dat3 (V5 m) c).arrAt 2 cfg3.N)
theorem W6_out (c : Dev nD) : W6 m c (Proc.devRef .tc main_v8) = (dat3 (V5 m) c).arrAt 2 cfg3.N := by
  unfold W6; exact Function.update_self ..
theorem W6_of_ne (c : Dev nD) (b : Ref sig .tc) (hb : b ≠ main_v8) :
    W6 m c (Proc.devRef .tc b) = W5 m c (Proc.devRef .tc b) := by
  unfold W6; exact Function.update_of_ne (StableHlo.devRef_ne_of_ne hb) ..
abbrev V6 : (c : Dev nD) → (b : Ref sig .tc) → Buf (Elt F) ((c : Thread nD τ).loc b) := fun c b => W6 m c b

/-! ### The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := (W4_arr m c 0).trans (((dat2 (V3 m) c).arrAt_in 0 rfl _).trans (A_eq2 (V3 m) c 0))
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The pipelines' data, and what rides along -/

/-- No kernel has a prefetched table. -/
abbrev adm : (p : Fin 4) → (pcfgs (F := F) p).Adm := fun p => (cfgs p).toPCfg_adm
/-- Every kernel's data, each at the contents its kernel is entered with. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state, and the core's dues, at nothing. -/
abbrev R (c : Dev nD) : sProp 𝕄 := iprop((∃ r, prngReg c r) ∗ ∃ W, owes (c : Thread nD τ) (0 : CellTallies nD τ sig Unit) W)
/-- A stretch of host lines as a segment of the program, over all the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the dues: every unscoped buffer at the fold's last contents, the generator register. -/
abbrev Tₙ (c : Dev nD) : sProp 𝕄 := iprop(StableHlo.held (c : Thread nD τ) (Pipeline.ucRefs τ sig) (W6 m c) ∗ ∃ r, prngReg c r)

/-! ## The first three kernels as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KDecoder.lean ====
/-
  The decoder kernel as a segment of the program: one array read through two windows.

  The decoder's two input windows — a block of 256 rows, and the whole matrix — read the same latent matrix. The
  pipeline holds each window's array at a share of its own, so at the kernel's entry the matrix's buffer, held whole
  among the core's unscoped buffers, is split along the share into its left and right halves, one per window; the
  output array is held whole. Reading needs no more than a share. At the exit both halves still hold what was
  found, so they join into the whole buffer again, and with the output array at what the write-backs left and every
  other buffer untouched the core holds all its unscoped buffers at the next contents.
-/
import proofs.«116482_g15831249453334_cont_week2b_1002_2_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The decoder's arrays, window by window: the latent matrix at the left half share, the same at the right half
    share, the output at the full share. -/
theorem arrays3_eq (V : (c : Dev nD) → (b : Ref sig .tc) → Buf (Elt F) ((c : Thread nD τ).loc b)) (c : Dev nD)
    (Fa : (w : Fin cfg3.W) → Buf (Elt F) ((cfg3.win w).arr.view.loc (c : Thread nD τ))) :
    ((dat3 V c).arrays Fa : sProp 𝕄)
      = iprop((((c : Thread nD τ).loc main_v7) ↦{fullShare.left} Fa 0) ∗ (((c : Thread nD τ).loc main_v7) ↦{fullShare.right} Fa 1)
          ∗ (((c : Thread nD τ).loc main_v8) ↦{fullShare} Fa 2)) := by
  unfold Dat.arrays
  rw [bigSep_W3, (arr_whole3 0).set_eq_univ, (arr_whole3 2).set_eq_univ]
  rfl

/-- The buffers behind the decoder's windows, each once: the latent matrix and the output. -/
theorem arrBufs3_eq (c : Dev nD) (Vc : (b : Ref sig .tc) → Buf (Elt F) ((c : Thread nD τ).loc b)) :
    (Pipeline.arrBufs (Ix := Unit) (Name := ℕ) (U := UR sig nD τ) (Lvl := ℕ) spec3 c Vc : sProp 𝕄)
      = iprop((((c : Thread nD τ).loc main_v7) ↦{fullShare} Vc main_v7) ∗ (((c : Thread nD τ).loc main_v8) ↦{fullShare} Vc main_v8)) := by
  unfold Pipeline.arrBufs
  exact bigSep_eq_bigSepL_of_eq [main_v7, main_v8] (by decide) (by decide) _

/-- The core's unscoped buffers: the latent matrix, the decoder's output, and the rest. -/
theorem unscopedBufs3_eq (c : Dev nD) (Vc : (b : Ref sig .tc) → Buf (Elt F) ((c : Thread nD τ).loc b)) :
    (unscopedBufs c Vc : sProp 𝕄)
      = iprop(((((c : Thread nD τ).loc main_v7) ↦{fullShare} Vc main_v7) ∗ (((c : Thread nD τ).loc main_v8) ↦{fullShare} Vc main_v8))
          ∗ Pipeline.unscopedRest (Ix := Unit) (Name := ℕ) (U := UR sig nD τ) (Lvl := ℕ) spec3 c Vc) := by
  have h := Pipeline.unscopedBufs_split₀ (Ix := Unit) (Name := ℕ) (U := UR sig nD τ) (Lvl := ℕ) cfgs 3 winFacts₀3.arr_unscoped c Vc
  rw [show (Pipeline.arrBufs (Ix := Unit) (Name := ℕ) (U := UR sig nD τ) (Lvl := ℕ) (cfgs 3).spec c Vc : sProp 𝕄) = _ from arrBufs3_eq c Vc] at h
  exact h

/-- ENTRY: the core's unscoped buffers at the contents found are the decoder's arrays at their entry contents — the
    latent matrix's buffer split along the share into its two halves — and the rest. -/
theorem entry3 (V : (c : Dev nD) → (b : Ref sig .tc) → Buf (Elt F) ((c : Thread nD τ).loc b)) (c : Dev nD) :
    (unscopedBufs c (V c) : sProp 𝕄)
      ⊢ iprop((dat3 V c).arrays ((dat3 V c).arrAt · 0)
          ∗ Pipeline.unscopedRest (Ix := Unit) (Name := ℕ) (U := UR sig nD τ) (Lvl := ℕ) spec3 c (V c)) := by
  rw [unscopedBufs3_eq, arrays3_eq]
  iintro ⟨⟨H7, H8⟩, Hrest⟩
  ihave H7' := (pointsTo_share (PosShare.mem_left_op_right fullShare)).1 $$ H7
  icases H7' with ⟨H7l, H7r⟩
  isplitr [Hrest]
  · isplitl [H7l]; · iexact H7l
    isplitl [H7r]; · iexact H7r
    iexact H8
  iexact Hrest

/-- EXIT: the two halves, both still at the contents found, join into the whole buffer; with the output at what the
    write-backs left and the rest untouched, these are the core's unscoped buffers at any contents `V'` that agree
    with `V` off the output and hold the output's final contents there. -/
theorem exit3 (V V' : (c : Dev nD) → (b : Ref sig .tc) → Buf (Elt F) ((c : Thread nD τ).loc b)) (c : Dev nD)
    (hout : V' c main_v8 = (dat3 V c).arrAt 2 cfg3.N) (hrest : ∀ b, b ≠ main_v8 → V' c b = V c b) :
    iprop((dat3 V c).arrays ((dat3 V c).arrAt · cfg3.N)
        ∗ Pipeline.unscopedRest (Ix := Unit) (Name := ℕ) (U := UR sig nD τ) (Lvl := ℕ) spec3 c (V c))
      ⊢ (unscopedBufs c (V' c) : sProp 𝕄) := by
  have e0 : (dat3 V c).arrAt 0 cfg3.N = V' c main_v7 :=
    ((dat3 V c).arrAt_in 0 rfl _).trans ((A_eq3 V c 0).trans (hrest main_v7 (by decide)).symm)
  have e1 : (dat3 V c).arrAt 1 cfg3.N = V' c main_v7 :=
    ((dat3 V c).arrAt_in 1 rfl _).trans ((A_eq3 V c 1).trans (hrest main_v7 (by decide)).symm)
  have er : (Pipeline.unscopedRest (Ix := Unit) (Name := ℕ) (U := UR sig nD τ) (Lvl := ℕ) spec3 c (V c) : sProp 𝕄)
      = Pipeline.unscopedRest (Ix := Unit) (Name := ℕ) (U := UR sig nD τ) (Lvl := ℕ) spec3 c (V' c) := by
    unfold Pipeline.unscopedRest
    exact bigSep_congr fun b hb => by
      rw [hrest b fun e => (Finset.mem_sdiff.mp hb).2 (e ▸ Finset.mem_image.mpr ⟨2, Finset.mem_univ _, rfl⟩)]
  rw [unscopedBufs3_eq, arrays3_eq, er]
  dsimp only
  rw [e0, e1, ← hout]
  iintro ⟨⟨H7l, H7r, H8⟩, Hrest⟩
  isplitr [Hrest]
  · isplitl [H7l H7r]
    · iapply (pointsTo_share (PosShare.mem_left_op_right fullShare)).2
      isplitl [H7l]; · iexact H7l
      iexact H7r
    iexact H8
  iexact Hrest

set_option backward.isDefEq.respectTransparency.types false in
/-- The decoder as a segment: entered from every unscoped buffer at the contents the second stretch of host lines
    left, left with the output array at what the write-backs made of it. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m c)
  hentry c := by
    rw [Pipeline.ownSems0_none]
    have hsplit : (unscopedBufs c (V5 m c) : sProp 𝕄)
        ⊢ iprop((pdats m 3 c).arrays ((pdats m 3 c).arrAt · 0)
            ∗ Pipeline.unscopedRest (Ix := Unit) (Name := ℕ) (U := UR sig nD τ) (Lvl := ℕ) spec3 c (V5 m c)) := entry3 (V5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (V5 m c))
        ⊢ (unscopedBufs c (V6 m c) : sProp 𝕄) := exit3 (V5 m) (V6 m) c (W6_out m c) (fun b hb => W6_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.KLaunch.lean ====
/-
  The launch of the whole program, and what its final memory holds.

  The program is six items in order — a stretch of host lines, the first three kernels, a second stretch, the
  decoder — each entered from what the one before it left. For any float values, from any memory with every
  semaphore counter at zero: every weakly fair execution on the TensorCores terminates, nothing faulting, and in
  every final memory every unscoped buffer holds the last contents of the fold through the program.
-/
import proofs.«116482_g15831249453334_cont_week2b_1002_2_alg».proof.Proof.KDecoder

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's six items in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)),
    .region (reg3 m) ]

/-- The program is the run of its items. -/
theorem main_run (c : Dev nD) : main (F := F) c = Pipeline.Seg.run (segs m) := (main_chain c).trans (by chain_rfl)

set_option backward.isDefEq.respectTransparency.types false in
/-- Every weakly fair execution terminates, and every final memory holds each unscoped buffer at the fold's last
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: every weakly fair execution terminates, nothing faulting, and the five argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run_all m ρ)

end Cert.Kernel.Hand

end
-- ==== Proof.KIBody0.lean ====
/-
  The first kernel of the encoder (one point, whole arrays): what its body leaves in memory.

  The body reads the whole [4096, 128] feature matrix and the whole [128, 64] weight matrix and stores one
  [4096, 64] array: a single store covering the whole output buffer. So after the body the output buffer holds the
  stored value — a function of the two loaded arrays alone — and the input buffers are as they were. (The body
  also loads the output buffer before storing into it; the loaded value is not used.)
-/
import proofs.«116482_g15831249453334_cont_week2b_1002_2_alg».proof.Proof.Gen.KernelIdeal.Launch
import proofs.«116482_g15831249453334_cont_week2b_1002_2_alg».proof.Proof.Gen.KernelIdeal.Skeleton
import proofs.«116482_g15831249453334_cont_week2b_1002_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r0_0 : Rect S4096x128 := Rect.unit (s := S4096x128) ![0, 0] S4096x128.size inb_S4096x128_S4096x128_0_0
abbrev r0_1 : Rect S128x64 := Rect.unit (s := S128x64) ![0, 0] S128x64.size inb_S128x64_S128x64_0_0
abbrev r0_2 : Rect S4096x64 := Rect.unit (s := S4096x64) ![0, 0] S4096x64.size inb_S4096x64_S4096x64_0_0

/-- The output buffer after the body, from the two input buffers' contents: the one store, covering the buffer. -/
def out0_2 (x0 : Vec F S4096x128 .f32) (x1 : Vec F S128x64 .f32) : Vec F S4096x64 .bf16 :=
  View.canon [⟨r0_2, k0_pay1 (View.ld x0 r0_0) (View.ld x1 r0_1)⟩]

/-- The one store covers the output buffer. -/
theorem cover0_2 (p0 : Vec F S4096x64 .bf16) (y : S4096x64.Idx) :
    ∃ pc ∈ ([⟨r0_2, p0⟩] : List (View.Piece (Elt F) S4096x64 .bf16)), y ∈ pc.1.set :=
  View.cover_of_tiled [⟨r0_2, p0⟩] S4096x64.size (by rfl) y

set_option maxHeartbeats 1000000 in
/-- The body on whole buffers, the inputs' at contents `x0 x1` and the output's at anything, runs to the
    continuation with the inputs' as they were and the output's at `out0_2 x0 x1`. -/
theorem sound_kernel0 (c : Dev nD) (E : Set ℕ)
    (arg0 : Memref sig .tc .vmem S4096x128 .f32) (harg0 : arg0.IsWhole) (arg1 : Memref sig .tc .vmem S128x64 .f32) (harg1 : arg1.IsWhole)
    (arg2 : Memref sig .tc .vmem S4096x64 .bf16) (harg2 : arg2.IsWhole)
    (x0 : Vec F S4096x128 .f32) (x1 : Vec F S128x64 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__s1_body arg0 harg0 arg1 harg1 arg2 harg2) K := by
  simp only [cc0__s1_body_eq_skeleton]; unfold cc0__s1_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.KernelIdeal.Hand

end
-- ==== Proof.KIBody1.lean ====
/-
  The second kernel of the encoder, one block of 256 rows: what its body leaves in memory.

  The body reads a [256, 4096] block of the adjacency matrix, the whole [4096, 64] support matrix and the whole
  [64, 64] weight matrix, and stores one [256, 64] block: a single store covering the whole output buffer. So after the
  body the output buffer holds the stored value — a function of the three loaded arrays alone — and the three
  input buffers are as they were. (The body also loads the output buffer before storing into it; the loaded value is
  not used.)
-/
import proofs.«116482_g15831249453334_cont_week2b_1002_2_alg».proof.Proof.Gen.KernelIdeal.Launch
import proofs.«116482_g15831249453334_cont_week2b_1002_2_alg».proof.Proof.Gen.KernelIdeal.Skeleton
import proofs.«116482_g15831249453334_cont_week2b_1002_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1_0 : Rect S256x4096 := Rect.unit (s := S256x4096) ![0, 0] S256x4096.size inb_S256x4096_S256x4096_0_0
abbrev r1_1 : Rect S4096x64 := Rect.unit (s := S4096x64) ![0, 0] S4096x64.size inb_S4096x64_S4096x64_0_0
abbrev r1_2 : Rect S64x64 := Rect.unit (s := S64x64) ![0, 0] S64x64.size inb_S64x64_S64x64_0_0
abbrev r1_3 : Rect S256x64 := Rect.unit (s := S256x64) ![0, 0] S256x64.size inb_S256x64_S256x64_0_0

/-- The output buffer after the body, from the three input buffers' contents: the one store, covering the buffer. -/
def out1_3 (x0 : Vec F S256x4096 .f32) (x1 : Vec F S4096x64 .bf16) (x2 : Vec F S64x64 .bf16) : Vec F S256x64 .bf16 :=
  View.canon [⟨r1_3, k1_pay1 (View.ld x0 r1_0) (View.ld x1 r1_1) (View.ld x2 r1_2)⟩]

/-- The one store covers the output buffer. -/
theorem cover1_3 (p0 : Vec F S256x64 .bf16) (y : S256x64.Idx) :
    ∃ pc ∈ ([⟨r1_3, p0⟩] : List (View.Piece (Elt F) S256x64 .bf16)), y ∈ pc.1.set :=
  View.cover_of_tiled [⟨r1_3, p0⟩] S256x64.size (by rfl) y

set_option maxHeartbeats 1000000 in
/-- The body on whole buffers, the inputs' at contents `x0 x1 x2` and the output's at anything, runs to the
    continuation with the inputs' as they were and the output's at `out1_3 x0 x1 x2`. -/
theorem sound_kernel1 (c : Dev nD) (E : Set ℕ) (i : grid1.Coords)
    (arg1 : Memref sig .tc .vmem S256x4096 .f32) (harg1 : arg1.IsWhole) (arg2 : Memref sig .tc .vmem S4096x64 .bf16) (harg2 : arg2.IsWhole)
    (arg3 : Memref sig .tc .vmem S64x64 .bf16) (harg3 : arg3.IsWhole) (arg4 : Memref sig .tc .vmem S256x64 .bf16) (harg4 : arg4.IsWhole)
    (x0 : Vec F S256x4096 .f32) (x1 : Vec F S4096x64 .bf16) (x2 : Vec F S64x64 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__hw_body i arg1 harg1 arg2 harg2 arg3 harg3 arg4 harg4) K := by
  simp only [cc1__hw_body_eq_skeleton]; unfold cc1__hw_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

end Cert.KernelIdeal.Hand

end
-- ==== Proof.KIBody2.lean ====
/-
  The third kernel of the encoder, one block of 256 rows: what its body leaves in memory.

  The body reads a [256, 4096] block of the adjacency matrix and the whole [4096, 64] matrix of the hidden layer
  times the weights, and stores one [256, 64] block: a single store covering the whole output buffer. So after the
  body the output buffer holds the stored value — a function of the two loaded arrays alone — and the input
  buffers are as they were. (The body also loads the output buffer before storing into it; the loaded value is not
  used.)
-/
import proofs.«116482_g15831249453334_cont_week2b_1002_2_alg».proof.Proof.Gen.KernelIdeal.Launch
import proofs.«116482_g15831249453334_cont_week2b_1002_2_alg».proof.Proof.Gen.KernelIdeal.Skeleton
import proofs.«116482_g15831249453334_cont_week2b_1002_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r2_0 : Rect S256x4096 := Rect.unit (s := S256x4096) ![0, 0] S256x4096.size inb_S256x4096_S256x4096_0_0
abbrev r2_1 : Rect S4096x64 := Rect.unit (s := S4096x64) ![0, 0] S4096x64.size inb_S4096x64_S4096x64_0_0
abbrev r2_2 : Rect S256x64 := Rect.unit (s := S256x64) ![0, 0] S256x64.size inb_S256x64_S256x64_0_0

/-- The output buffer after the body, from the two input buffers' contents: the one store, covering the buffer. -/
def out2_2 (x0 : Vec F S256x4096 .f32) (x1 : Vec F S4096x64 .bf16) : Vec F S256x64 .f32 :=
  View.canon [⟨r2_2, k2_pay1 (View.ld x0 r2_0) (View.ld x1 r2_1)⟩]

/-- The one store covers the output buffer. -/
theorem cover2_2 (p0 : Vec F S256x64 .f32) (y : S256x64.Idx) :
    ∃ pc ∈ ([⟨r2_2, p0⟩] : List (View.Piece (Elt F) S256x64 .f32)), y ∈ pc.1.set :=
  View.cover_of_tiled [⟨r2_2, p0⟩] S256x64.size (by rfl) y

set_option maxHeartbeats 1000000 in
/-- The body on whole buffers, the inputs' at contents `x0 x1` and the output's at anything, runs to the
    continuation with the inputs' as they were and the output's at `out2_2 x0 x1`. -/
theorem sound_kernel2 (c : Dev nD) (E : Set ℕ) (i : grid2.Coords)
    (arg1 : Memref sig .tc .vmem S256x4096 .f32) (harg1 : arg1.IsWhole) (arg2 : Memref sig .tc .vmem S4096x64 .bf16) (harg2 : arg2.IsWhole)
    (arg3 : Memref sig .tc .vmem S256x64 .f32) (harg3 : arg3.IsWhole)
    (x0 : Vec F S256x4096 .f32) (x1 : Vec F S4096x64 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__mlv_body i arg1 harg1 arg2 harg2 arg3 harg3) K := by
  simp only [cc2__mlv_body_eq_skeleton]; unfold cc2__mlv_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

end Cert.KernelIdeal.Hand

end
-- ==== Proof.KIBody3.lean ====
/-
  The decoder kernel, one block of 256 rows: what its body leaves in memory.

  The body reads a [256, 32] block of the latent matrix and the whole [4096, 32] latent matrix and stores one
  [256, 4096] block: a single store covering the whole output buffer. So after the body the output buffer holds the
  stored value — a function of the two loaded arrays alone — and the input buffers are as they were. (The body
  also loads the output buffer before storing into it; the loaded value is not used.)
-/
import proofs.«116482_g15831249453334_cont_week2b_1002_2_alg».proof.Proof.Gen.KernelIdeal.Launch
import proofs.«116482_g15831249453334_cont_week2b_1002_2_alg».proof.Proof.Gen.KernelIdeal.Skeleton
import proofs.«116482_g15831249453334_cont_week2b_1002_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r3_0 : Rect S256x32 := Rect.unit (s := S256x32) ![0, 0] S256x32.size inb_S256x32_S256x32_0_0
abbrev r3_1 : Rect S4096x32 := Rect.unit (s := S4096x32) ![0, 0] S4096x32.size inb_S4096x32_S4096x32_0_0
abbrev r3_2 : Rect S256x4096 := Rect.unit (s := S256x4096) ![0, 0] S256x4096.size inb_S256x4096_S256x4096_0_0

/-- The output buffer after the body, from the two input buffers' contents: the one store, covering the buffer. -/
def out3_2 (x0 : Vec F S256x32 .bf16) (x1 : Vec F S4096x32 .bf16) : Vec F S256x4096 .f32 :=
  View.canon [⟨r3_2, k3_pay1 (View.ld x0 r3_0) (View.ld x1 r3_1)⟩]

/-- The one store covers the output buffer. -/
theorem cover3_2 (p0 : Vec F S256x4096 .f32) (y : S256x4096.Idx) :
    ∃ pc ∈ ([⟨r3_2, p0⟩] : List (View.Piece (Elt F) S256x4096 .f32)), y ∈ pc.1.set :=
  View.cover_of_tiled [⟨r3_2, p0⟩] S256x4096.size (by rfl) y

set_option maxHeartbeats 1000000 in
/-- The body on whole buffers, the inputs' at contents `x0 x1` and the output's at anything, runs to the
    continuation with the inputs' as they were and the output's at `out3_2 x0 x1`. -/
theorem sound_kernel3 (c : Dev nD) (E : Set ℕ) (i : grid3.Coords)
    (arg1 : Memref sig .tc .vmem S256x32 .bf16) (harg1 : arg1.IsWhole) (arg2 : Memref sig .tc .vmem S4096x32 .bf16) (harg2 : arg2.IsWhole)
    (arg3 : Memref sig .tc .vmem S256x4096 .f32) (harg3 : arg3.IsWhole)
    (x0 : Vec F S256x32 .bf16) (x1 : Vec F S4096x32 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__dec_body i arg1 harg1 arg2 harg2 arg3 harg3) K := by
  simp only [cc3__dec_body_eq_skeleton]; unfold cc3__dec_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

end Cert.KernelIdeal.Hand

end
-- ==== Proof.KIData.lean ====
/-
  The four kernels' pipelines: what each window's staging buffer holds at each grid point, and that each body
  does what the pipeline needs of it.

  Every kernel here has the same plain shape. At grid point t each INPUT window's staging buffer holds that window's
  block of its array, as the array stood when the kernel was entered (fetched at that point, or still there from an
  earlier point when the block index has not moved: the whole-array windows are fetched once). The body leaves the
  input buffers alone and overwrites the OUTPUT window's buffer with a function of the input blocks. Nothing else
  is touched: the rest of the scoped memory and the generator register pass through, no core owes another anything.
  The decoder kernel reads ONE array through two windows (a row block and the whole array): each window holds the
  array at half of the full share, which is enough to read it.
-/
import proofs.«116482_g15831249453334_cont_week2b_1002_2_alg».proof.Proof.KIBody0
import proofs.«116482_g15831249453334_cont_week2b_1002_2_alg».proof.Proof.KIBody1
import proofs.«116482_g15831249453334_cont_week2b_1002_2_alg».proof.Proof.KIBody2
import proofs.«116482_g15831249453334_cont_week2b_1002_2_alg».proof.Proof.KIBody3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a kernel is entered: every kernel's half is stated at this parameter
variable (V : (c : Dev nD) → (b : Ref sig .tc) → Buf (Elt F) ((c : Thread nD τ).loc b))

/-! # The first kernel: x · W₁ -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The pipeline's data: the arrays as found; after the body the inputs' buffers at their blocks and the output's at
    the body's function of them; the untouched rest as invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # The second kernel: max(adj · s, 0) · [W₂ | W₃], 256 rows at a point -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

/-! # The third kernel: adj · (the second kernel's result), 256 rows at a point -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

/-! # The decoder kernel: logistic(z · zᵀ), 256 rows at a point; both input windows read the one array z -/

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The decoder's data: as the others', except that the one input array is held at two half shares, one per window. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIRun.lean ====
/-
  The whole program's run: the four kernels among the host's lines, from the launch to the return.

  Between two items of the program (a stretch of host lines or a kernel) each core holds every unscoped buffer whole,
  at contents that are a fold through the program from the launch memory: a stretch of host lines applies its
  operations; a kernel leaves its output array at what its pipeline's write-backs make of it (block t of the output
  is what the body stored at point t) and every other buffer as it found it — its inputs included, which it only
  reads. The generator register rides along at some state, and no core owes another anything.

  The decoder reads the latent matrix through two windows. At its entry the matrix's buffer, held whole, is split
  along the share into two halves, one per window; at its exit the halves — both still at the contents found —
  are joined again.

  The outcome, for any float values: every weakly fair execution terminates, and in every final memory each unscoped
  buffer holds the fold's last contents. Read at an argument, the fold walks back to the launch memory.
-/
import proofs.«116482_g15831249453334_cont_week2b_1002_2_alg».proof.Proof.KIData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the program's items -/

/-- Core `c`'s buffers at launch. -/
abbrev W0 : Dev nD → Valuation τ sig (Elt F) := fun c b => m ((c : Dev nD), b)
/-- After the first stretch of host lines (the two weight matrices laid side by side, then rounded). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After kernel 0: its arrays at what the pipeline leaves, every other buffer as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After kernel 1: its arrays at what the pipeline leaves, every other buffer as before. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- After kernel 2: its arrays at what the pipeline leaves, every other buffer as before. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the second stretch of host lines (the two halves of the columns, and the rounded left half). -/
abbrev W5 : Dev nD → Valuation τ sig (Elt F) := fun c => StableHlo.after hostOps3 (W4 m c)
abbrev V5 : (c : Dev nD) → (b : Ref sig .tc) → Buf (Elt F) ((c : Thread nD τ).loc b) := fun c b => W5 m c b
/-- After the decoder: its output array at what the pipeline leaves, every other buffer as before. -/
def W6 (c : Dev nD) : Valuation τ sig (Elt F) :=
  Function.update (W5 m c) (Proc.devRef .tc main_v8)
    (show Buf (Elt F) ((c : Thread nD τ).loc main_v8) from (dat3 (V5 m) c).arrAt 2 cfg3.N)
theorem W6_out (c : Dev nD) : W6 m c (Proc.devRef .tc main_v8) = (dat3 (V5 m) c).arrAt 2 cfg3.N := by
  unfold W6; exact Function.update_self ..
theorem W6_of_ne (c : Dev nD) (b : Ref sig .tc) (hb : b ≠ main_v8) :
    W6 m c (Proc.devRef .tc b) = W5 m c (Proc.devRef .tc b) := by
  unfold W6; exact Function.update_of_ne (StableHlo.devRef_ne_of_ne hb) ..
abbrev V6 : (c : Dev nD) → (b : Ref sig .tc) → Buf (Elt F) ((c : Thread nD τ).loc b) := fun c b => W6 m c b

/-! ### The arguments end as launched -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg1) := (W4_arr m c 0).trans (((dat2 (V3 m) c).arrAt_in 0 rfl _).trans (A_eq2 (V3 m) c 0))
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg2) := W4_of_ne m c main_arg2 (by decide)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg3) := W4_of_ne m c main_arg3 (by decide)
    _ = W2 m c (Proc.devRef .tc main_arg3) := W3_of_ne m c main_arg3 (by decide)
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = W0 m c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The pipelines' data, and what rides along -/

/-- No kernel has a prefetched table. -/
abbrev adm : (p : Fin 4) → (pcfgs (F := F) p).Adm := fun p => (cfgs p).toPCfg_adm
/-- Every kernel's data, each at the contents its kernel is entered with. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
  | ⟨3, _⟩ => fun c => dat3 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers: the generator register at some state, and the core's dues, at nothing. -/
abbrev R (c : Dev nD) : sProp 𝕄 := iprop((∃ r, prngReg c r) ∗ ∃ W, owes (c : Thread nD τ) (0 : CellTallies nD τ sig Unit) W)
/-- A stretch of host lines as a segment of the program, over all the unscoped buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state without the dues: every unscoped buffer at the fold's last contents, the generator register. -/
abbrev Tₙ (c : Dev nD) : sProp 𝕄 := iprop(StableHlo.held (c : Thread nD τ) (Pipeline.ucRefs τ sig) (W6 m c) ∗ ∃ r, prngReg c r)

/-! ## The first three kernels as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIDecoder.lean ====
/-
  The decoder kernel as a segment of the program: one array read through two windows.

  The decoder's two input windows — a block of 256 rows, and the whole matrix — read the same latent matrix. The
  pipeline holds each window's array at a share of its own, so at the kernel's entry the matrix's buffer, held whole
  among the core's unscoped buffers, is split along the share into its left and right halves, one per window; the
  output array is held whole. Reading needs no more than a share. At the exit both halves still hold what was
  found, so they join into the whole buffer again, and with the output array at what the write-backs left and every
  other buffer untouched the core holds all its unscoped buffers at the next contents.
-/
import proofs.«116482_g15831249453334_cont_week2b_1002_2_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The decoder's arrays, window by window: the latent matrix at the left half share, the same at the right half
    share, the output at the full share. -/
theorem arrays3_eq (V : (c : Dev nD) → (b : Ref sig .tc) → Buf (Elt F) ((c : Thread nD τ).loc b)) (c : Dev nD)
    (Fa : (w : Fin cfg3.W) → Buf (Elt F) ((cfg3.win w).arr.view.loc (c : Thread nD τ))) :
    ((dat3 V c).arrays Fa : sProp 𝕄)
      = iprop((((c : Thread nD τ).loc main_v7) ↦{fullShare.left} Fa 0) ∗ (((c : Thread nD τ).loc main_v7) ↦{fullShare.right} Fa 1)
          ∗ (((c : Thread nD τ).loc main_v8) ↦{fullShare} Fa 2)) := by
  unfold Dat.arrays
  rw [bigSep_W3, (arr_whole3 0).set_eq_univ, (arr_whole3 2).set_eq_univ]
  rfl

/-- The buffers behind the decoder's windows, each once: the latent matrix and the output. -/
theorem arrBufs3_eq (c : Dev nD) (Vc : (b : Ref sig .tc) → Buf (Elt F) ((c : Thread nD τ).loc b)) :
    (Pipeline.arrBufs (Ix := Unit) (Name := ℕ) (U := UR sig nD τ) (Lvl := ℕ) spec3 c Vc : sProp 𝕄)
      = iprop((((c : Thread nD τ).loc main_v7) ↦{fullShare} Vc main_v7) ∗ (((c : Thread nD τ).loc main_v8) ↦{fullShare} Vc main_v8)) := by
  unfold Pipeline.arrBufs
  exact bigSep_eq_bigSepL_of_eq [main_v7, main_v8] (by decide) (by decide) _

/-- The core's unscoped buffers: the latent matrix, the decoder's output, and the rest. -/
theorem unscopedBufs3_eq (c : Dev nD) (Vc : (b : Ref sig .tc) → Buf (Elt F) ((c : Thread nD τ).loc b)) :
    (unscopedBufs c Vc : sProp 𝕄)
      = iprop(((((c : Thread nD τ).loc main_v7) ↦{fullShare} Vc main_v7) ∗ (((c : Thread nD τ).loc main_v8) ↦{fullShare} Vc main_v8))
          ∗ Pipeline.unscopedRest (Ix := Unit) (Name := ℕ) (U := UR sig nD τ) (Lvl := ℕ) spec3 c Vc) := by
  have h := Pipeline.unscopedBufs_split₀ (Ix := Unit) (Name := ℕ) (U := UR sig nD τ) (Lvl := ℕ) cfgs 3 winFacts₀3.arr_unscoped c Vc
  rw [show (Pipeline.arrBufs (Ix := Unit) (Name := ℕ) (U := UR sig nD τ) (Lvl := ℕ) (cfgs 3).spec c Vc : sProp 𝕄) = _ from arrBufs3_eq c Vc] at h
  exact h

/-- ENTRY: the core's unscoped buffers at the contents found are the decoder's arrays at their entry contents — the
    latent matrix's buffer split along the share into its two halves — and the rest. -/
theorem entry3 (V : (c : Dev nD) → (b : Ref sig .tc) → Buf (Elt F) ((c : Thread nD τ).loc b)) (c : Dev nD) :
    (unscopedBufs c (V c) : sProp 𝕄)
      ⊢ iprop((dat3 V c).arrays ((dat3 V c).arrAt · 0)
          ∗ Pipeline.unscopedRest (Ix := Unit) (Name := ℕ) (U := UR sig nD τ) (Lvl := ℕ) spec3 c (V c)) := by
  rw [unscopedBufs3_eq, arrays3_eq]
  iintro ⟨⟨H7, H8⟩, Hrest⟩
  ihave H7' := (pointsTo_share (PosShare.mem_left_op_right fullShare)).1 $$ H7
  icases H7' with ⟨H7l, H7r⟩
  isplitr [Hrest]
  · isplitl [H7l]; · iexact H7l
    isplitl [H7r]; · iexact H7r
    iexact H8
  iexact Hrest

/-- EXIT: the two halves, both still at the contents found, join into the whole buffer; with the output at what the
    write-backs left and the rest untouched, these are the core's unscoped buffers at any contents `V'` that agree
    with `V` off the output and hold the output's final contents there. -/
theorem exit3 (V V' : (c : Dev nD) → (b : Ref sig .tc) → Buf (Elt F) ((c : Thread nD τ).loc b)) (c : Dev nD)
    (hout : V' c main_v8 = (dat3 V c).arrAt 2 cfg3.N) (hrest : ∀ b, b ≠ main_v8 → V' c b = V c b) :
    iprop((dat3 V c).arrays ((dat3 V c).arrAt · cfg3.N)
        ∗ Pipeline.unscopedRest (Ix := Unit) (Name := ℕ) (U := UR sig nD τ) (Lvl := ℕ) spec3 c (V c))
      ⊢ (unscopedBufs c (V' c) : sProp 𝕄) := by
  have e0 : (dat3 V c).arrAt 0 cfg3.N = V' c main_v7 :=
    ((dat3 V c).arrAt_in 0 rfl _).trans ((A_eq3 V c 0).trans (hrest main_v7 (by decide)).symm)
  have e1 : (dat3 V c).arrAt 1 cfg3.N = V' c main_v7 :=
    ((dat3 V c).arrAt_in 1 rfl _).trans ((A_eq3 V c 1).trans (hrest main_v7 (by decide)).symm)
  have er : (Pipeline.unscopedRest (Ix := Unit) (Name := ℕ) (U := UR sig nD τ) (Lvl := ℕ) spec3 c (V c) : sProp 𝕄)
      = Pipeline.unscopedRest (Ix := Unit) (Name := ℕ) (U := UR sig nD τ) (Lvl := ℕ) spec3 c (V' c) := by
    unfold Pipeline.unscopedRest
    exact bigSep_congr fun b hb => by
      rw [hrest b fun e => (Finset.mem_sdiff.mp hb).2 (e ▸ Finset.mem_image.mpr ⟨2, Finset.mem_univ _, rfl⟩)]
  rw [unscopedBufs3_eq, arrays3_eq, er]
  dsimp only
  rw [e0, e1, ← hout]
  iintro ⟨⟨H7l, H7r, H8⟩, Hrest⟩
  isplitr [Hrest]
  · isplitl [H7l H7r]
    · iapply (pointsTo_share (PosShare.mem_left_op_right fullShare)).2
      isplitl [H7l]; · iexact H7l
      iexact H7r
    iexact H8
  iexact Hrest

set_option backward.isDefEq.respectTransparency.types false in
/-- The decoder as a segment: entered from every unscoped buffer at the contents the second stretch of host lines
    left, left with the output array at what the write-backs made of it. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (V5 m) c).loose
  hwaits := Pipeline.hwaits_of_owed_zero _ _ _ _ L lv 3 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m c)
  hentry c := by
    rw [Pipeline.ownSems0_none]
    have hsplit : (unscopedBufs c (V5 m c) : sProp 𝕄)
        ⊢ iprop((pdats m 3 c).arrays ((pdats m 3 c).arrAt · 0)
            ∗ Pipeline.unscopedRest (Ix := Unit) (Name := ℕ) (U := UR sig nD τ) (Lvl := ℕ) spec3 c (V5 m c)) := entry3 (V5 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N)
          ∗ Pipeline.unscopedRest (Ix := Unit) (Name := ℕ) (U := UR sig nD τ) (Lvl := ℕ) spec3 c (V5 m c))
        ⊢ (unscopedBufs c (V6 m c) : sProp 𝕄) := exit3 (V5 m) (V6 m) c (W6_out m c) (fun b hb => W6_of_ne m c b hb)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.KILaunch.lean ====
/-
  The launch of the whole program, and what its final memory holds.

  The program is six items in order — a stretch of host lines, the first three kernels, a second stretch, the
  decoder — each entered from what the one before it left. For any float values, from any memory with every
  semaphore counter at zero: every weakly fair execution on the TensorCores terminates, nothing faulting, and in
  every final memory every unscoped buffer holds the last contents of the fold through the program.
-/
import proofs.«116482_g15831249453334_cont_week2b_1002_2_alg».proof.Proof.KIDecoder

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's six items in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m),
    .host (hseg hostOps3 hostOps3_sub hostOps3_fresh (W4 m)),
    .region (reg3 m) ]

/-- The program is the run of its items. -/
theorem main_run (c : Dev nD) : main (F := F) c = Pipeline.Seg.run (segs m) := (main_chain c).trans (by chain_rfl)

set_option backward.isDefEq.respectTransparency.types false in
/-- Every weakly fair execution terminates, and every final memory holds each unscoped buffer at the fold's last
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: every weakly fair execution terminates, nothing faulting, and the five argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c)⟩) (run_all m ρ)

end Cert.KernelIdeal.Hand

end
-- ==== Proof.Spec.lean ====
/-
  The mathematics of a graph auto-encoder's forward pass, on the extended reals.

  Building blocks, each an array as a function of its index, over arrays of any extents:
  the matrix product `A · B`, the product with a transpose `A · Bᵀ`, the rectifier `max(·, 0)`, the logistic
  function entry by entry, two matrices laid side by side along the columns, and the left and right halves of a
  matrix's columns. The encoder is  s = x · W₁,  h = max(adj · s, 0),  μ = adj · (h · W₂),  logvar = adj · (h · W₃),
  and the decoder  logistic(μ · μᵀ).

  Two laws are all that joins an encoder computing μ and logvar in ONE pass, with W₂ and W₃ side by side, to one
  computing them in two: a product with two matrices laid side by side is the two products laid side by side,
  column by column (entry (i, j) of a product only reads column j of the right factor), and taking the left (right)
  half of the columns undoes the laying side by side. Neither needs distributivity, so neither needs the entries
  to be finite.
-/
import Idealize.ShloMosaic.Lib.ValueIdx
import Idealize.ShloMosaic.PureOps.Ideal.Laws

noncomputable section

open scoped BigOperators

namespace Cert.Encoder

open Idealize.ShloMosaic Idealize.ShloMosaic.ValueIdx

variable {M K N : ℕ} {φ₁ φ₂ φ : FTy}

/-- A rank-2 index's row, as a number below the first extent. -/
abbrev row (i : (⟨2, ![M, N]⟩ : Shape).Idx) : Fin M := ⟨(i 0).val, idx2_lt0 i⟩
/-- A rank-2 index's column, as a number below the second extent. -/
abbrev col (i : (⟨2, ![M, N]⟩ : Shape).Idx) : Fin N := ⟨(i 1).val, idx2_lt1 i⟩

/-- The matrix product: entry (i, j) is the sum over k of A (i, k) · B (k, j). -/
def mm (A : FVec Ideal ⟨2, ![M, K]⟩ φ₁) (B : FVec Ideal ⟨2, ![K, N]⟩ φ₂) : FVec Ideal ⟨2, ![M, N]⟩ .f32 :=
  fun i => ∑ k : Fin K, A (ix2 (row i) k) * B (ix2 k (col i))

theorem mm_apply (A : FVec Ideal ⟨2, ![M, K]⟩ φ₁) (B : FVec Ideal ⟨2, ![K, N]⟩ φ₂) (p : Fin M) (q : Fin N) :
    mm A B (ix2 p q) = ∑ k : Fin K, A (ix2 p k) * B (ix2 k q) := rfl

/-- The product with a transpose: entry (i, j) is the sum over k of A (i, k) · B (j, k). -/
def mmT (A : FVec Ideal ⟨2, ![M, K]⟩ φ₁) (B : FVec Ideal ⟨2, ![N, K]⟩ φ₂) : FVec Ideal ⟨2, ![M, N]⟩ .f32 :=
  fun i => ∑ k : Fin K, A (ix2 (row i) k) * B (ix2 (col i) k)

theorem mmT_apply (A : FVec Ideal ⟨2, ![M, K]⟩ φ₁) (B : FVec Ideal ⟨2, ![N, K]⟩ φ₂) (p : Fin M) (q : Fin N) :
    mmT A B (ix2 p q) = ∑ k : Fin K, A (ix2 p k) * B (ix2 q k) := rfl

/-- The rectifier, entry by entry. -/
def relu (A : FVec Ideal ⟨2, ![M, N]⟩ φ) : FVec Ideal ⟨2, ![M, N]⟩ φ := fun i => max (A i) (0 : EReal)

theorem relu_apply (A : FVec Ideal ⟨2, ![M, N]⟩ φ) (i : (⟨2, ![M, N]⟩ : Shape).Idx) : relu A i = max (A i) (0 : EReal) := rfl

/-- The logistic function 1 / (1 + e⁻ˣ), entry by entry. -/
def logisticA (A : FVec Ideal ⟨2, ![M, N]⟩ φ) : FVec Ideal ⟨2, ![M, N]⟩ φ := fun i => Ideal.logistic (A i)

theorem logisticA_apply (A : FVec Ideal ⟨2, ![M, N]⟩ φ) (i : (⟨2, ![M, N]⟩ : Shape).Idx) :
    logisticA A i = Ideal.logistic (A i) := rfl

/-- Two matrices of `N` columns each laid side by side: columns below `N` are `A`'s, the others `B`'s. -/
def sideBySide (A : FVec Ideal ⟨2, ![M, N]⟩ φ) (B : FVec Ideal ⟨2, ![M, N]⟩ φ) : FVec Ideal ⟨2, ![M, N + N]⟩ φ :=
  fun i => if h : (i 1).val < N then A (ix2 (row i) ⟨(i 1).val, h⟩)
    else B (ix2 (row i) ⟨(i 1).val - N, by have := idx2_lt1 i; omega⟩)

/-- The left half of a matrix's `N + N` columns. -/
def leftCols (A : FVec Ideal ⟨2, ![M, N + N]⟩ φ) : FVec Ideal ⟨2, ![M, N]⟩ φ :=
  fun i => A (ix2 (row i) ⟨(i 1).val, by have := idx2_lt1 i; omega⟩)

/-- The right half of a matrix's `N + N` columns. -/
def rightCols (A : FVec Ideal ⟨2, ![M, N + N]⟩ φ) : FVec Ideal ⟨2, ![M, N]⟩ φ :=
  fun i => A (ix2 (row i) ⟨(i 1).val + N, by have := idx2_lt1 i; omega⟩)

/-- Entry (i, j) of a product reads only column j of the right factor: against two matrices side by side, the left
    half of the product's columns is the product with the left matrix. -/
theorem leftCols_mm_sideBySide (A : FVec Ideal ⟨2, ![M, K]⟩ φ₁) (B C : FVec Ideal ⟨2, ![K, N]⟩ φ₂) :
    leftCols (mm A (sideBySide B C)) = mm A B := by
  funext i
  obtain ⟨p, q, rfl⟩ : ∃ (p : Fin M) (q : Fin N), i = ix2 p q := ⟨i 0, i 1, eq_ix2 i⟩
  show ∑ k : Fin K, A (ix2 p k) * sideBySide B C (ix2 k ⟨q.val, _⟩) = ∑ k : Fin K, A (ix2 p k) * B (ix2 k q)
  refine Finset.sum_congr rfl fun k _ => ?_
  unfold sideBySide
  rw [dif_pos (show ((ix2 k (⟨q.val, by omega⟩ : Fin (N + N)) : (⟨2, ![K, N + N]⟩ : Shape).Idx) 1).val < N from q.isLt)]
  rfl

/-- The right half of the product's columns is the product with the right matrix. -/
theorem rightCols_mm_sideBySide (A : FVec Ideal ⟨2, ![M, K]⟩ φ₁) (B C : FVec Ideal ⟨2, ![K, N]⟩ φ₂) :
    rightCols (mm A (sideBySide B C)) = mm A C := by
  funext i
  obtain ⟨p, q, rfl⟩ : ∃ (p : Fin M) (q : Fin N), i = ix2 p q := ⟨i 0, i 1, eq_ix2 i⟩
  show ∑ k : Fin K, A (ix2 p k) * sideBySide B C (ix2 k ⟨q.val + N, _⟩) = ∑ k : Fin K, A (ix2 p k) * C (ix2 k q)
  refine Finset.sum_congr rfl fun k _ => ?_
  unfold sideBySide
  rw [dif_neg (show ¬ ((ix2 k (⟨q.val + N, by omega⟩ : Fin (N + N)) : (⟨2, ![K, N + N]⟩ : Shape).Idx) 1).val < N from by
    show ¬ q.val + N < N; omega)]
  refine congrArg (fun j => A (ix2 p k) * C (ix2 k j)) (Fin.ext ?_)
  show q.val + N - N = q.val
  omega

/-- Taking the left half of the columns of a product whose right factor's columns are halves laid side by side,
    one level down: the left half of `A · X` is `A · (left half of X)`. -/
theorem leftCols_mm (A : FVec Ideal ⟨2, ![M, K]⟩ φ₁) (X : FVec Ideal ⟨2, ![K, N + N]⟩ φ₂) :
    leftCols (mm A X) = mm A (leftCols X) := by
  funext i
  obtain ⟨p, q, rfl⟩ : ∃ (p : Fin M) (q : Fin N), i = ix2 p q := ⟨i 0, i 1, eq_ix2 i⟩
  rfl

theorem rightCols_mm (A : FVec Ideal ⟨2, ![M, K]⟩ φ₁) (X : FVec Ideal ⟨2, ![K, N + N]⟩ φ₂) :
    rightCols (mm A X) = mm A (rightCols X) := by
  funext i
  obtain ⟨p, q, rfl⟩ : ∃ (p : Fin M) (q : Fin N), i = ix2 p q := ⟨i 0, i 1, eq_ix2 i⟩
  rfl

end Cert.Encoder

end
-- ==== Proof.LibPlainDot.lean ====
/-
  A general lemma file: the plain matrix product M×K by K×N read at an entry, at the ideal values.

  A `tpu.matmul` into the zero accumulator, and the host's `dot_general`, whose dimension numbers contract the left
  operand's second axis with the right operand's first (no batch axis) are, at entry `(i, j)`, the sum over
  `k : Fin K` of `L (i, k) * R (k, j)`. Stated for any dimension record EQUAL to `DotDims.plain M K N` (a printed
  program's record with these dimension numbers is, by `rfl`), for any extents and operand formats.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- The left operand's index at result index `j` and contraction index `q` has `j`'s row … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- … and the contraction coordinate as its column. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's index has the contraction coordinate as its row … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- … and `j`'s column. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

variable {M K N}

/-- The contraction's sum over its index type is the sum over `k : Fin K` of the operands at `(i, k)` and `(k, j)`. -/
theorem sum_contr {φ₁ φ₂ : FTy} (L : FVec Ideal ⟨2, ![M, K]⟩ φ₁) (R : FVec Ideal ⟨2, ![K, N]⟩ φ₂) (i : Fin M) (j : Fin N) :
    ∑ q : (DotDims.plain M K N).contr.Idx,
        L ((DotDims.plain M K N).lhsIdx (ix2 i j) q) * R ((DotDims.plain M K N).rhsIdx (ix2 i j) q)
      = ∑ k : Fin K, L (ix2 i k) * R (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs0 M K N _ _
      | ⟨1, _⟩ => exact (lhs1 M K N _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs0 M K N _ _).trans hk
      | ⟨1, _⟩ => exact rhs1 M K N _ _)
  rw [el, er]

/-- A `tpu.matmul` with these dimension numbers into the zero splat, read at `(i, j)`. -/
theorem matmul_zero_apply {φ₁ φ₂ : FTy} (d : DotDims ⟨2, ![M, K]⟩ ⟨2, ![K, N]⟩ ⟨2, ![M, N]⟩) (hd : d = DotDims.plain M K N)
    (prec : Option ContractPrecision) (L : FVec Ideal ⟨2, ![M, K]⟩ φ₁) (R : FVec Ideal ⟨2, ![K, N]⟩ φ₂) (i : Fin M) (j : Fin N) :
    matmul d prec L R (constant (F := Ideal) ⟨2, ![M, N]⟩ .f32 0x00000000#32) (ix2 i j) = ∑ k : Fin K, L (ix2 i k) * R (ix2 k j) := by
  subst hd
  show FloatOps.matmul (DotDims.plain M K N) prec L R (constant ⟨2, ![M, N]⟩ .f32 0x00000000#32) (ix2 i j) = _
  rw [Ideal.matmul_constant_zero_apply]
  exact sum_contr L R i j

/-- The host's `dot_general` with these dimension numbers, read at `(i, j)`. -/
theorem hostDot_apply {φ₁ φ₂ : FTy} (d : DotDims ⟨2, ![M, K]⟩ ⟨2, ![K, N]⟩ ⟨2, ![M, N]⟩) (hd : d = DotDims.plain M K N)
    (prec : Option ContractPrecision) (L : FVec Ideal ⟨2, ![M, K]⟩ φ₁) (R : FVec Ideal ⟨2, ![K, N]⟩ φ₂) (i : Fin M) (j : Fin N) :
    Host.dotGeneral (F := Ideal) d prec L R (ix2 i j) = ∑ k : Fin K, L (ix2 i k) * R (ix2 k j) := by
  subst hd
  simp only [Host.dotGeneral]
  rw [Ideal.dotGeneral_apply]
  exact sum_contr L R i j

end Cert.PlainDot

end
-- ==== Proof.LibTransposedDot.lean ====
/-
  A general lemma file: the matrix product M×K by N×K, the right operand contracted on its LAST axis, read at an entry,
  at the ideal values.

  A `tpu.matmul` into the zero accumulator whose dimension numbers contract the left operand's second axis with the
  right operand's second axis (no batch axis) — the product of a matrix with the transpose of another, as in the
  scores `q · Cᵀ` of an attention head — is, at entry `(i, j)`, the sum over `k : Fin K` of `L (i, k) * R (j, k)`.
  Stated for any dimension record EQUAL to the library's `DotDims.transposedRhs M K N` (a printed program's record
  with these dimension numbers is, by `rfl`), for any extents and operand formats.
-/
import Idealize.ShloMosaic.Lib.ValueIdx
import Idealize.ShloMosaic.PureOps.Ideal.Laws

noncomputable section

open scoped BigOperators

namespace Cert.TransposedDot

open Idealize.ShloMosaic Idealize.ShloMosaic.ValueIdx

variable (M K N : ℕ)

/-- The left operand's index at result index `j` and contraction index `q` has `j`'s row … -/
theorem lhs0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- … and the contraction coordinate as its column. -/
theorem lhs1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's index has `j`'s column as its ROW … -/
theorem rhs0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- … and the contraction coordinate as its column. -/
theorem rhs1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

variable {M K N}

/-- The contraction's sum over its index type is the sum over `k : Fin K` of the operands at `(i, k)` and `(j, k)`. -/
theorem sum_contr {φ₁ φ₂ : FTy} (L : FVec Ideal ⟨2, ![M, K]⟩ φ₁) (R : FVec Ideal ⟨2, ![N, K]⟩ φ₂) (i : Fin M) (j : Fin N) :
    ∑ q : (DotDims.transposedRhs M K N).contr.Idx,
        L ((DotDims.transposedRhs M K N).lhsIdx (ix2 i j) q) * R ((DotDims.transposedRhs M K N).rhsIdx (ix2 i j) q)
      = ∑ k : Fin K, L (ix2 i k) * R (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhs0 M K N _ _
      | ⟨1, _⟩ => exact (lhs1 M K N _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhs0 M K N _ _
      | ⟨1, _⟩ => exact (rhs1 M K N _ _).trans hk)
  rw [el, er]

/-- A `tpu.matmul` with these dimension numbers into the zero splat, read at `(i, j)`. -/
theorem matmul_zero_apply {φ₁ φ₂ : FTy} (d : DotDims ⟨2, ![M, K]⟩ ⟨2, ![N, K]⟩ ⟨2, ![M, N]⟩) (hd : d = DotDims.transposedRhs M K N)
    (prec : Option ContractPrecision) (L : FVec Ideal ⟨2, ![M, K]⟩ φ₁) (R : FVec Ideal ⟨2, ![N, K]⟩ φ₂) (i : Fin M) (j : Fin N) :
    matmul d prec L R (constant (F := Ideal) ⟨2, ![M, N]⟩ .f32 0x00000000#32) (ix2 i j) = ∑ k : Fin K, L (ix2 i k) * R (ix2 j k) := by
  subst hd
  show FloatOps.matmul (DotDims.transposedRhs M K N) prec L R (constant ⟨2, ![M, N]⟩ .f32 0x00000000#32) (ix2 i j) = _
  rw [Ideal.matmul_constant_zero_apply]
  exact sum_contr L R i j

end Cert.TransposedDot

end
-- ==== Proof.Payloads.lean ====
/-
  The arithmetic of the four kernel bodies, at the ideal values, is the specification's building blocks.

  At the ideal values a narrowing conversion is the identity, a reshape to the same shape is the identity, a matrix
  product into the zero accumulator is the plain sum of products, the entrywise maximum with the constant zero is the
  rectifier and the entrywise logistic is the logistic function. So the four stored values are, as arrays:
  x · W₁;  max(adj · s, 0) · W;  adj · t;  logistic(μ · μᵀ).
-/
import proofs.«116482_g15831249453334_cont_week2b_1002_2_alg».proof.Proof.Gen.KernelIdeal.Skeleton
import proofs.«116482_g15831249453334_cont_week2b_1002_2_alg».proof.Proof.Spec
import proofs.«116482_g15831249453334_cont_week2b_1002_2_alg».proof.Proof.LibPlainDot
import proofs.«116482_g15831249453334_cont_week2b_1002_2_alg».proof.Proof.LibTransposedDot
import Idealize.ShloMosaic.Lib.Pipeline.Value

noncomputable section

open scoped BigOperators

namespace Cert.KernelIdeal.Bridge

open Idealize.ShloMosaic Idealize.ShloMosaic.ValueIdx Cert.Encoder Cert.KernelIdeal Cert.KernelIdeal.Gen

/-- The first body's stored value is the matrix product of its two operands. -/
theorem pay0 (v0 : Vec Ideal S4096x128 .f32) (v1 : Vec Ideal S128x64 .f32) :
    k0_pay1 (F := Ideal) v0 v1 = mm (φ₁ := .f32) (φ₂ := .f32) v0 v1 := by
  funext j
  obtain ⟨p, q, rfl⟩ : ∃ (p : Fin 4096) (q : Fin 64), j = ix2 p q := ⟨j 0, j 1, eq_ix2 j⟩
  exact Cert.PlainDot.matmul_zero_apply dot_S4096x128_S128x64_S4096x64_1_0_0_1_n_n rfl none v0 v1 p q

/-- The third body's stored value is the matrix product of its two operands. -/
theorem pay2 (v0 : Vec Ideal S256x4096 .f32) (v2 : Vec Ideal S4096x64 .bf16) :
    k2_pay1 (F := Ideal) v0 v2 = mm (φ₁ := .f32) (φ₂ := .bf16) v0 v2 := by
  funext j
  obtain ⟨p, q, rfl⟩ : ∃ (p : Fin 256) (q : Fin 64), j = ix2 p q := ⟨j 0, j 1, eq_ix2 j⟩
  show matmul dot_S256x4096_S4096x64_S256x64_1_0_0_1_n_n none (truncf .bf16 v0 bitsLt_bf16_f32)
      (shapeCast S4096x64 v2 shapeCasts_S4096x64_S4096x64) (constant (F := Ideal) S256x64 .f32 0x00000000#32) (ix2 p q) = _
  rw [shapeCast_self]
  exact Cert.PlainDot.matmul_zero_apply dot_S256x4096_S4096x64_S256x64_1_0_0_1_n_n rfl none _ v2 p q

/-- The fourth body's stored value is the logistic function of the product of its left operand with the transpose
    of its right operand. -/
theorem pay3 (v0 : Vec Ideal S256x32 .bf16) (v2 : Vec Ideal S4096x32 .bf16) :
    k3_pay1 (F := Ideal) v0 v2 = logisticA (mmT (φ₁ := .bf16) (φ₂ := .bf16) v0 v2) := by
  funext j
  obtain ⟨p, q, rfl⟩ : ∃ (p : Fin 256) (q : Fin 4096), j = ix2 p q := ⟨j 0, j 1, eq_ix2 j⟩
  show Ideal.logistic (matmul dot_S256x32_S4096x32_S256x4096_1_1_0_0_n_n none (shapeCast S256x32 v0 shapeCasts_S256x32_S256x32)
      (shapeCast S4096x32 v2 shapeCasts_S4096x32_S4096x32) (constant (F := Ideal) S256x4096 .f32 0x00000000#32) (ix2 p q)) = _
  rw [shapeCast_self, shapeCast_self]
  exact congrArg Ideal.logistic
    (Cert.TransposedDot.matmul_zero_apply dot_S256x32_S4096x32_S256x4096_1_1_0_0_n_n rfl none v0 v2 p q)

/-- The entrywise maximum of a product into the zero accumulator with the constant zero, narrowed, is the rectifier
    of the matrix product, entry by entry. -/
theorem hidden_apply (v0 : FVec Ideal S256x4096 .f32) (v2 : FVec Ideal S4096x64 .bf16) (p : Fin 256) (l : Fin 64) :
    (truncf .bf16 (maximumf (matmul dot_S256x4096_S4096x64_S256x64_1_0_0_1_n_n none (truncf .bf16 v0 bitsLt_bf16_f32)
        (shapeCast S4096x64 v2 shapeCasts_S4096x64_S4096x64) (constant (F := Ideal) S256x64 .f32 0x00000000#32))
        (broadcast S256x64 (Scalar.ofBits (F := Ideal) .f32 0x00000000#32))) bitsLt_bf16_f32 : FVec Ideal S256x64 .bf16) (ix2 p l)
      = relu (mm (φ₁ := .f32) (φ₂ := .bf16) v0 v2) (ix2 p l) := by
  show max (matmul dot_S256x4096_S4096x64_S256x64_1_0_0_1_n_n none (truncf .bf16 v0 bitsLt_bf16_f32)
        (shapeCast S4096x64 v2 shapeCasts_S4096x64_S4096x64) (constant (F := Ideal) S256x64 .f32 0x00000000#32) (ix2 p l))
      (Ideal.ofBits .f32 0x00000000#32) = max (mm (φ₁ := .f32) (φ₂ := .bf16) v0 v2 (ix2 p l)) (0 : EReal)
  rw [Ideal.ofBits_zero_f32, shapeCast_self]
  exact congrArg (fun t : EReal => max t 0)
    (Cert.PlainDot.matmul_zero_apply dot_S256x4096_S4096x64_S256x64_1_0_0_1_n_n rfl none _ v2 p l)

/-- The second body's stored value is the rectifier of the product of its first two operands, times the third. -/
theorem pay1 (v0 : Vec Ideal S256x4096 .f32) (v2 : Vec Ideal S4096x64 .bf16) (v8 : Vec Ideal S64x64 .bf16) :
    k1_pay1 (F := Ideal) v0 v2 v8 = mm (φ₁ := .f32) (φ₂ := .bf16) (relu (mm (φ₁ := .f32) (φ₂ := .bf16) v0 v2)) v8 := by
  funext j
  obtain ⟨p, q, rfl⟩ : ∃ (p : Fin 256) (q : Fin 64), j = ix2 p q := ⟨j 0, j 1, eq_ix2 j⟩
  show matmul dot_S256x64_S64x64_S256x64_1_0_0_1_n_n none
      (truncf .bf16 (maximumf (matmul dot_S256x4096_S4096x64_S256x64_1_0_0_1_n_n none (truncf .bf16 v0 bitsLt_bf16_f32)
        (shapeCast S4096x64 v2 shapeCasts_S4096x64_S4096x64) (constant (F := Ideal) S256x64 .f32 0x00000000#32))
        (broadcast S256x64 (Scalar.ofBits (F := Ideal) .f32 0x00000000#32))) bitsLt_bf16_f32 : FVec Ideal S256x64 .bf16)
      (shapeCast S64x64 v8 shapeCasts_S64x64_S64x64) (constant (F := Ideal) S256x64 .f32 0x00000000#32) (ix2 p q) = _
  rw [shapeCast_self v8]
  refine (Cert.PlainDot.matmul_zero_apply (φ₂ := .bf16) dot_S256x64_S64x64_S256x64_1_0_0_1_n_n rfl none _ v8 p q).trans ?_
  exact Finset.sum_congr rfl fun l _ => congrArg (fun t : EReal => t * v8 (ix2 l q)) (hidden_apply v0 v2 p l)

end Cert.KernelIdeal.Bridge

end
-- ==== Proof.SpecRows.lean ====
/-
  Blocks of rows.

  Entry (i, j) of a matrix product reads row i of the left factor only. So if a matrix A' is a selection of rows of
  A — row p of A' is row ρ p of A — then row p of A' · B is row ρ p of A · B, and likewise for the product with a
  transpose, the rectifier and the logistic function, which act entry by entry. This is what lets a kernel compute
  256 rows of a result at a time from 256 rows of its left operand.
-/
import proofs.«116482_g15831249453334_cont_week2b_1002_2_alg».proof.Proof.Spec

noncomputable section

open scoped BigOperators

namespace Cert.Encoder

open Idealize.ShloMosaic Idealize.ShloMosaic.ValueIdx

variable {M M' K N : ℕ} {φ₁ φ₂ φ : FTy}

/-- Rows of a product: row p of A' · B is row ρ p of A · B when row p of A' is row ρ p of A. -/
theorem mm_rows (A : FVec Ideal ⟨2, ![M, K]⟩ φ₁) (A' : FVec Ideal ⟨2, ![M', K]⟩ φ₁) (B : FVec Ideal ⟨2, ![K, N]⟩ φ₂)
    (ρ : Fin M' → Fin M) (h : ∀ p k, A' (ix2 p k) = A (ix2 (ρ p) k)) (p : Fin M') (q : Fin N) :
    mm A' B (ix2 p q) = mm A B (ix2 (ρ p) q) := by
  rw [mm_apply, mm_apply]
  exact Finset.sum_congr rfl fun k _ => by rw [h]

/-- Rows of a product with a transpose. -/
theorem mmT_rows (A : FVec Ideal ⟨2, ![M, K]⟩ φ₁) (A' : FVec Ideal ⟨2, ![M', K]⟩ φ₁) (B : FVec Ideal ⟨2, ![N, K]⟩ φ₂)
    (ρ : Fin M' → Fin M) (h : ∀ p k, A' (ix2 p k) = A (ix2 (ρ p) k)) (p : Fin M') (q : Fin N) :
    mmT A' B (ix2 p q) = mmT A B (ix2 (ρ p) q) := by
  rw [mmT_apply, mmT_apply]
  exact Finset.sum_congr rfl fun k _ => by rw [h]

/-- Rows of the rectifier. -/
theorem relu_rows (A : FVec Ideal ⟨2, ![M, N]⟩ φ) (A' : FVec Ideal ⟨2, ![M', N]⟩ φ)
    (ρ : Fin M' → Fin M) (h : ∀ p q, A' (ix2 p q) = A (ix2 (ρ p) q)) (p : Fin M') (q : Fin N) :
    relu A' (ix2 p q) = relu A (ix2 (ρ p) q) := by
  rw [relu_apply, relu_apply, h]

/-- Rows of the logistic function. -/
theorem logisticA_rows (A : FVec Ideal ⟨2, ![M, N]⟩ φ) (A' : FVec Ideal ⟨2, ![M', N]⟩ φ)
    (ρ : Fin M' → Fin M) (h : ∀ p q, A' (ix2 p q) = A (ix2 (ρ p) q)) (p : Fin M') (q : Fin N) :
    logisticA A' (ix2 p q) = logisticA A (ix2 (ρ p) q) := by
  rw [logisticA_apply, logisticA_apply, h]

end Cert.Encoder

end
-- ==== Proof.KIValue0.lean ====
/-
  The first kernel's output array, whole: x · W₁.

  The kernel has one grid point and every window is its whole array, so the one block written back is the whole
  output: the product of the feature matrix and the first weight matrix as the kernel finds them.
-/
import proofs.«116482_g15831249453334_cont_week2b_1002_2_alg».proof.Proof.KIData
import proofs.«116482_g15831249453334_cont_week2b_1002_2_alg».proof.Proof.Payloads
import proofs.«116482_g15831249453334_cont_week2b_1002_2_alg».proof.Proof.SpecRows
import Idealize.ShloMosaic.Lib.Pipeline.Value

set_option maxRecDepth 16384

noncomputable section

open scoped BigOperators

namespace Cert.KernelIdeal.Hand

open Cert.KernelIdeal Cert.KernelIdeal.Gen Cert.Encoder
open Idealize.ShloMosaic Idealize.ShloMosaic.TcCoe Idealize.ShloMosaic.ValueIdx
open Idealize.SL Idealize.SL.Sem
open Idealize.ShloMosaic.Pipeline (Dat Cfg Window)

-- the TensorCore's buffer contents when the kernel is entered, at the ideal values
variable (V : (c : Dev nD) → (b : Ref sig .tc) → Buf (Elt Ideal) ((c : Thread nD τ).loc b))

theorem hz0 : (![0, 0] : Fin 2 → Nat) = fun _ => 0 := funext fun a => by fin_cases a <;> rfl

/-- The block index maps over the grid: every window stays at block 0 on both axes. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first window's block is the whole feature matrix. -/
theorem blk0_0 (c : Dev nD) (t : Fin cfg0.N) (p : Fin 4096) (k : Fin 128) :
    iblk0 V c 0 t (ix2 p k) = V c main_arg0 (ix2 p k) := by
  obtain ⟨e00, e01, -⟩ := idx_facts0 t
  show V c main_arg0 (((cfg0.win 0).blk t).view.emb (ix2 p k)) = _
  refine congrArg (V c main_arg0) (funext fun a => Fin.ext ?_)
  match a with
  | ⟨0, _⟩ => show win0_0.index t (0 : Fin 2) * 4096 + 1 * p.val = p.val; omega
  | ⟨1, _⟩ => show win0_0.index t (1 : Fin 2) * 128 + 1 * k.val = k.val; omega

/-- The second window's block is the whole weight matrix. -/
theorem blk0_1 (c : Dev nD) (t : Fin cfg0.N) (k : Fin 128) (l : Fin 64) :
    iblk0 V c 1 t (ix2 k l) = V c main_arg2 (ix2 k l) := by
  obtain ⟨-, -, e10, e11, -⟩ := idx_facts0 t
  show V c main_arg2 (((cfg0.win 1).blk t).view.emb (ix2 k l)) = _
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 64 + 1 * l.val = l.val; omega

/-- The whole result: x · W₁ of the arrays as the kernel finds them. -/
def G0 (c : Dev nD) : FVec Ideal ⟨2, ![4096, 64]⟩ .f32 :=
  mm (φ₁ := .f32) (φ₂ := .f32) (V c main_arg0) (V c main_arg2)

/-- What the one point writes back is the whole result. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz0]
  simp only [View.ld_unit_zero (S := S4096x128) hz0, View.ld_unit_zero (S := S128x64) hz0]
  rw [Bridge.pay0]
  obtain ⟨-, -, -, -, e20, e21⟩ := idx_facts0 t
  funext j
  obtain ⟨p, q, rfl⟩ : ∃ (p : Fin 4096) (q : Fin 64), j = ix2 p q := ⟨j 0, j 1, eq_ix2 j⟩
  have hemb : ((cfg0.win 2).blk t).view.emb (ix2 p q) = ix2 p q := funext fun a => Fin.ext (by
    match a with
    | ⟨0, _⟩ => show win0_2.index t (0 : Fin 2) * 4096 + 1 * p.val = p.val; omega
    | ⟨1, _⟩ => show win0_2.index t (1 : Fin 2) * 64 + 1 * q.val = q.val; omega)
  show _ = G0 V c (((cfg0.win 2).blk t).view.emb (ix2 p q))
  rw [hemb]
  unfold G0
  show mm (φ₁ := .f32) (φ₂ := .f32) (iblk0 V c 0 t) (iblk0 V c 1 t) (ix2 p q) = _
  rw [mm_apply, mm_apply]
  exact Finset.sum_congr rfl fun k _ => by rw [blk0_0, blk0_1]

/-- An index of the output array is in the one point's block iff each coordinate is in the block's range. -/
theorem mem_blk0 (t : Fin cfg0.N) (i : S4096x64.Idx) :
    i ∈ ((cfg0.win 2).blk t).view.set ↔ ∀ a : Fin 2, win0_2.index t a * S4096x64.size a ≤ (i a).val ∧ (i a).val < win0_2.index t a * S4096x64.size a + S4096x64.size a := by
  show i ∈ ((View.whole main_v2).slice (win0_2.rect t)).set ↔ _
  rw [View.set_slice_whole, Rect.mem_set_unit]
  exact Iff.rfl

/-- The one block covers the output array. -/
theorem cover0 (i : S4096x64.Idx) : ∃ t : Fin cfg0.N, (cfg0.win 2).flush t = true ∧ i ∈ ((cfg0.win 2).blk t).view.set := by
  have hi0 : (i 0).val < 4096 := (i 0).isLt
  have hi1 : (i 1).val < 64 := (i 1).isLt
  obtain ⟨-, -, -, -, e20, e21⟩ := idx_facts0 t0_0
  refine ⟨t0_0, flush0_2 t0_0, ?_⟩
  rw [mem_blk0]
  intro a
  match a with
  | ⟨0, _⟩ => show win0_2.index t0_0 (0 : Fin 2) * 4096 ≤ (i 0).val ∧ (i 0).val < win0_2.index t0_0 (0 : Fin 2) * 4096 + 4096; omega
  | ⟨1, _⟩ => show win0_2.index t0_0 (1 : Fin 2) * 64 ≤ (i 1).val ∧ (i 1).val < win0_2.index t0_0 (1 : Fin 2) * 64 + 64; omega

/-- The output array after the kernel: x · W₁. -/
theorem final0 (c : Dev nD) : (dat0 V c).arrAt 2 cfg0.N = G0 V c :=
  (dat0 V c).arrAt_eq_of_cover 2 (G0 V c) (fun t _ => flushed0_eq V c t) cover0

end Cert.KernelIdeal.Hand

end
-- ==== Proof.KIValue1.lean ====
/-
  The second kernel's output array, whole: max(adj · s, 0) · wc.

  At grid point t the kernel reads rows 256·t … 256·t + 255 of the adjacency matrix and the whole of s and wc, and
  writes rows 256·t … 256·t + 255 of its output. Row p of what it stores is row p of
  max(adj_block · s, 0) · wc, which is row 256·t + p of max(adj · s, 0) · wc: a row of a product reads the same row
  of the left factor only. The sixteen blocks of 256 rows cover the 4096 rows, so the output array ends holding
  max(adj · s, 0) · wc.
-/
import proofs.«116482_g15831249453334_cont_week2b_1002_2_alg».proof.Proof.KIData
import proofs.«116482_g15831249453334_cont_week2b_1002_2_alg».proof.Proof.Payloads
import proofs.«116482_g15831249453334_cont_week2b_1002_2_alg».proof.Proof.SpecRows
import Idealize.ShloMosaic.Lib.Pipeline.Value

set_option maxRecDepth 16384

noncomputable section

open scoped BigOperators

namespace Cert.KernelIdeal.Hand

open Cert.KernelIdeal Cert.KernelIdeal.Gen Cert.Encoder
open Idealize.ShloMosaic Idealize.ShloMosaic.TcCoe Idealize.ShloMosaic.ValueIdx
open Idealize.SL Idealize.SL.Sem
open Idealize.ShloMosaic.Pipeline (Dat Cfg Window)

-- the TensorCore's buffer contents when the kernel is entered, at the ideal values
variable (V : (c : Dev nD) → (b : Ref sig .tc) → Buf (Elt Ideal) ((c : Thread nD τ).loc b))

theorem hz1 : (![0, 0] : Fin 2 → Nat) = fun _ => 0 := funext fun a => by fin_cases a <;> rfl

/-- The block index maps over the grid: the adjacency window and the output window move together along the rows,
    every other coordinate of every window stays at block 0, and there are sixteen row blocks. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 15 :=
  (by decide +kernel : ∀ t : Fin grid1.N, _)

/-- Every row block is some point's. -/
theorem idx_onto1 : ∀ q0 : Fin 16, ∃ t : Fin cfg1.N, win1_3.index t = ![q0.val, 0] :=
  (by decide +kernel : ∀ q0 : Fin 16, ∃ t : Fin grid1.N, win1_3.index t = ![q0.val, 0])

/-- The row of the array that row `p` of point `t`'s block is. -/
def rowOf1 (t : Fin cfg1.N) (p : Fin 256) : Fin 4096 :=
  ⟨win1_3.index t (0 : Fin 2) * 256 + p.val, by have := (idx_facts1 t).2.2.2.2.2.2.2; have := p.isLt; omega⟩

/-- The adjacency window's block at point `t`: rows 256·t … of the adjacency matrix. -/
theorem blk1_0 (c : Dev nD) (t : Fin cfg1.N) (p : Fin 256) (k : Fin 4096) :
    iblk1 V c 0 t (ix2 p k) = V c main_arg1 (ix2 (rowOf1 t p) k) := by
  obtain ⟨e00, e01, -⟩ := idx_facts1 t
  show V c main_arg1 (((cfg1.win 0).blk t).view.emb (ix2 p k)) = _
  refine congrArg (V c main_arg1) (funext fun a => Fin.ext ?_)
  match a with
  | ⟨0, _⟩ => show win1_0.index t (0 : Fin 2) * 256 + 1 * p.val = win1_3.index t (0 : Fin 2) * 256 + p.val; omega
  | ⟨1, _⟩ => show win1_0.index t (1 : Fin 2) * 4096 + 1 * k.val = k.val; omega

/-- The second window's block is the whole matrix s. -/
theorem blk1_1 (c : Dev nD) (t : Fin cfg1.N) (k : Fin 4096) (l : Fin 64) :
    iblk1 V c 1 t (ix2 k l) = V c main_v2 (ix2 k l) := by
  obtain ⟨-, -, e10, e11, -⟩ := idx_facts1 t
  show V c main_v2 (((cfg1.win 1).blk t).view.emb (ix2 k l)) = _
  refine congrArg (V c main_v2) (funext fun a => Fin.ext ?_)
  match a with
  | ⟨0, _⟩ => show win1_1.index t (0 : Fin 2) * 4096 + 1 * k.val = k.val; omega
  | ⟨1, _⟩ => show win1_1.index t (1 : Fin 2) * 64 + 1 * l.val = l.val; omega

/-- The third window's block is the whole matrix wc. -/
theorem blk1_2 (c : Dev nD) (t : Fin cfg1.N) (l : Fin 64) (q : Fin 64) :
    iblk1 V c 2 t (ix2 l q) = V c main_v1 (ix2 l q) := by
  obtain ⟨-, -, -, -, e20, e21, -⟩ := idx_facts1 t
  show V c main_v1 (((cfg1.win 2).blk t).view.emb (ix2 l q)) = _
  refine congrArg (V c main_v1) (funext fun a => Fin.ext ?_)
  match a with
  | ⟨0, _⟩ => show win1_2.index t (0 : Fin 2) * 64 + 1 * l.val = l.val; omega
  | ⟨1, _⟩ => show win1_2.index t (1 : Fin 2) * 64 + 1 * q.val = q.val; omega

/-- The whole result: max(adj · s, 0) · wc of the arrays as the kernel finds them. -/
def G1 (c : Dev nD) : FVec Ideal ⟨2, ![4096, 64]⟩ .f32 :=
  mm (φ₁ := .f32) (φ₂ := .bf16) (relu (mm (φ₁ := .f32) (φ₂ := .bf16) (V c main_arg1) (V c main_v2))) (V c main_v1)

/-- What point `t` writes back is block `t` of the whole result. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz1]
  simp only [View.ld_unit_zero (S := S256x4096) hz1, View.ld_unit_zero (S := S4096x64) hz1, View.ld_unit_zero (S := S64x64) hz1]
  rw [Bridge.pay1]
  obtain ⟨-, -, -, -, -, -, e31, -⟩ := idx_facts1 t
  funext j
  obtain ⟨p, q, rfl⟩ : ∃ (p : Fin 256) (q : Fin 64), j = ix2 p q := ⟨j 0, j 1, eq_ix2 j⟩
  have hemb : ((cfg1.win 3).blk t).view.emb (ix2 p q) = ix2 (rowOf1 t p) q := funext fun a => Fin.ext (by
    match a with
    | ⟨0, _⟩ => show win1_3.index t (0 : Fin 2) * 256 + 1 * p.val = win1_3.index t (0 : Fin 2) * 256 + p.val; omega
    | ⟨1, _⟩ => show win1_3.index t (1 : Fin 2) * 64 + 1 * q.val = q.val; omega)
  show _ = G1 V c (((cfg1.win 3).blk t).view.emb (ix2 p q))
  rw [hemb]
  unfold G1
  show mm (φ₁ := .f32) (φ₂ := .bf16) (relu (mm (φ₁ := .f32) (φ₂ := .bf16) (iblk1 V c 0 t) (iblk1 V c 1 t))) (iblk1 V c 2 t) (ix2 p q) = _
  refine (mm_rows (relu (mm (φ₁ := .f32) (φ₂ := .bf16) (V c main_arg1) (V c main_v2)))
    (relu (mm (φ₁ := .f32) (φ₂ := .bf16) (iblk1 V c 0 t) (iblk1 V c 1 t))) (iblk1 V c 2 t) (rowOf1 t) (fun p' l => ?_) p q).trans ?_
  · refine relu_rows _ _ (rowOf1 t) (fun p'' l' => ?_) p' l
    refine (mm_rows (V c main_arg1) (iblk1 V c 0 t) (iblk1 V c 1 t) (rowOf1 t) (fun p3 k => blk1_0 V c t p3 k) p'' l').trans ?_
    rw [mm_apply, mm_apply]
    exact Finset.sum_congr rfl fun k _ => by rw [blk1_1]
  · rw [mm_apply, mm_apply]
    exact Finset.sum_congr rfl fun l _ => by rw [blk1_2]

/-- An index of the output array is in point `t`'s block iff each coordinate is in the block's range on its axis. -/
theorem mem_blk1 (t : Fin cfg1.N) (i : S4096x64.Idx) :
    i ∈ ((cfg1.win 3).blk t).view.set ↔ ∀ a : Fin 2, win1_3.index t a * S256x64.size a ≤ (i a).val ∧ (i a).val < win1_3.index t a * S256x64.size a + S256x64.size a := by
  show i ∈ ((View.whole main_v3).slice (win1_3.rect t)).set ↔ _
  rw [View.set_slice_whole, Rect.mem_set_unit]
  exact Iff.rfl

/-- The sixteen row blocks cover the output array: row r is in block r / 256. -/
theorem cover1 (i : S4096x64.Idx) : ∃ t : Fin cfg1.N, (cfg1.win 3).flush t = true ∧ i ∈ ((cfg1.win 3).blk t).view.set := by
  have hi0 : (i 0).val < 4096 := (i 0).isLt
  have hi1 : (i 1).val < 64 := (i 1).isLt
  obtain ⟨t, ht⟩ := idx_onto1 ⟨(i 0).val / 256, by omega⟩
  have q0 : win1_3.index t (0 : Fin 2) = (i 0).val / 256 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 64 ≤ (i 1).val ∧ (i 1).val < win1_3.index t (1 : Fin 2) * 64 + 64; omega

/-- The output array after the kernel: max(adj · s, 0) · wc. -/
theorem final1 (c : Dev nD) : (dat1 V c).arrAt 3 cfg1.N = G1 V c :=
  (dat1 V c).arrAt_eq_of_cover 3 (G1 V c) (fun t _ => flushed1_eq V c t) cover1

end Cert.KernelIdeal.Hand

end
-- ==== Proof.KIValue2.lean ====
/-
  The third kernel's output array, whole: adj · hw.

  At grid point t the kernel reads rows 256·t … 256·t + 255 of the adjacency matrix and the whole of hw, and writes
  rows 256·t … 256·t + 255 of its output: row p of what it stores is row 256·t + p of adj · hw. The sixteen blocks of
  256 rows cover the 4096 rows, so the output array ends holding adj · hw.
-/
import proofs.«116482_g15831249453334_cont_week2b_1002_2_alg».proof.Proof.KIData
import proofs.«116482_g15831249453334_cont_week2b_1002_2_alg».proof.Proof.Payloads
import proofs.«116482_g15831249453334_cont_week2b_1002_2_alg».proof.Proof.SpecRows
import Idealize.ShloMosaic.Lib.Pipeline.Value

set_option maxRecDepth 16384

noncomputable section

open scoped BigOperators

namespace Cert.KernelIdeal.Hand

open Cert.KernelIdeal Cert.KernelIdeal.Gen Cert.Encoder
open Idealize.ShloMosaic Idealize.ShloMosaic.TcCoe Idealize.ShloMosaic.ValueIdx
open Idealize.SL Idealize.SL.Sem
open Idealize.ShloMosaic.Pipeline (Dat Cfg Window)

-- the TensorCore's buffer contents when the kernel is entered, at the ideal values
variable (V : (c : Dev nD) → (b : Ref sig .tc) → Buf (Elt Ideal) ((c : Thread nD τ).loc b))

theorem hz2 : (![0, 0] : Fin 2 → Nat) = fun _ => 0 := funext fun a => by fin_cases a <;> rfl

/-- The block index maps over the grid: the adjacency window and the output window move together along the rows,
    every other coordinate of every window stays at block 0, and there are sixteen row blocks. -/
theorem idx_facts2 : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 15 :=
  (by decide +kernel : ∀ t : Fin grid2.N, _)

/-- Every row block is some point's. -/
theorem idx_onto2 : ∀ q0 : Fin 16, ∃ t : Fin cfg2.N, win2_2.index t = ![q0.val, 0] :=
  (by decide +kernel : ∀ q0 : Fin 16, ∃ t : Fin grid2.N, win2_2.index t = ![q0.val, 0])

/-- The row of the array that row `p` of point `t`'s block is. -/
def rowOf2 (t : Fin cfg2.N) (p : Fin 256) : Fin 4096 :=
  ⟨win2_2.index t (0 : Fin 2) * 256 + p.val, by have := (idx_facts2 t).2.2.2.2.2; have := p.isLt; omega⟩

/-- The adjacency window's block at point `t`: rows 256·t … of the adjacency matrix. -/
theorem blk2_0 (c : Dev nD) (t : Fin cfg2.N) (p : Fin 256) (k : Fin 4096) :
    iblk2 V c 0 t (ix2 p k) = V c main_arg1 (ix2 (rowOf2 t p) k) := by
  obtain ⟨e00, e01, -⟩ := idx_facts2 t
  show V c main_arg1 (((cfg2.win 0).blk t).view.emb (ix2 p k)) = _
  refine congrArg (V c main_arg1) (funext fun a => Fin.ext ?_)
  match a with
  | ⟨0, _⟩ => show win2_0.index t (0 : Fin 2) * 256 + 1 * p.val = win2_2.index t (0 : Fin 2) * 256 + p.val; omega
  | ⟨1, _⟩ => show win2_0.index t (1 : Fin 2) * 4096 + 1 * k.val = k.val; omega

/-- The second window's block is the whole matrix hw. -/
theorem blk2_1 (c : Dev nD) (t : Fin cfg2.N) (k : Fin 4096) (l : Fin 64) :
    iblk2 V c 1 t (ix2 k l) = V c main_v3 (ix2 k l) := by
  obtain ⟨-, -, e10, e11, -⟩ := idx_facts2 t
  show V c main_v3 (((cfg2.win 1).blk t).view.emb (ix2 k l)) = _
  refine congrArg (V c main_v3) (funext fun a => Fin.ext ?_)
  match a with
  | ⟨0, _⟩ => show win2_1.index t (0 : Fin 2) * 4096 + 1 * k.val = k.val; omega
  | ⟨1, _⟩ => show win2_1.index t (1 : Fin 2) * 64 + 1 * l.val = l.val; omega

/-- The whole result: adj · hw of the arrays as the kernel finds them. -/
def G2 (c : Dev nD) : FVec Ideal ⟨2, ![4096, 64]⟩ .f32 :=
  mm (φ₁ := .f32) (φ₂ := .bf16) (V c main_arg1) (V c main_v3)

/-- What point `t` writes back is block `t` of the whole result. -/
theorem flushed2_eq (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero hz2]
  simp only [View.ld_unit_zero (S := S256x4096) hz2, View.ld_unit_zero (S := S4096x64) hz2]
  rw [Bridge.pay2]
  obtain ⟨-, -, -, -, e21, -⟩ := idx_facts2 t
  funext j
  obtain ⟨p, q, rfl⟩ : ∃ (p : Fin 256) (q : Fin 64), j = ix2 p q := ⟨j 0, j 1, eq_ix2 j⟩
  have hemb : ((cfg2.win 2).blk t).view.emb (ix2 p q) = ix2 (rowOf2 t p) q := funext fun a => Fin.ext (by
    match a with
    | ⟨0, _⟩ => show win2_2.index t (0 : Fin 2) * 256 + 1 * p.val = win2_2.index t (0 : Fin 2) * 256 + p.val; omega
    | ⟨1, _⟩ => show win2_2.index t (1 : Fin 2) * 64 + 1 * q.val = q.val; omega)
  show _ = G2 V c (((cfg2.win 2).blk t).view.emb (ix2 p q))
  rw [hemb]
  unfold G2
  show mm (φ₁ := .f32) (φ₂ := .bf16) (iblk2 V c 0 t) (iblk2 V c 1 t) (ix2 p q) = _
  refine (mm_rows (V c main_arg1) (iblk2 V c 0 t) (iblk2 V c 1 t) (rowOf2 t) (fun p3 k => blk2_0 V c t p3 k) p q).trans ?_
  rw [mm_apply, mm_apply]
  exact Finset.sum_congr rfl fun k _ => by rw [blk2_1]

/-- An index of the output array is in point `t`'s block iff each coordinate is in the block's range on its axis. -/
theorem mem_blk2 (t : Fin cfg2.N) (i : S4096x64.Idx) :
    i ∈ ((cfg2.win 2).blk t).view.set ↔ ∀ a : Fin 2, win2_2.index t a * S256x64.size a ≤ (i a).val ∧ (i a).val < win2_2.index t a * S256x64.size a + S256x64.size a := by
  show i ∈ ((View.whole main_v4).slice (win2_2.rect t)).set ↔ _
  rw [View.set_slice_whole, Rect.mem_set_unit]
  exact Iff.rfl

/-- The sixteen row blocks cover the output array: row r is in block r / 256. -/
theorem cover2 (i : S4096x64.Idx) : ∃ t : Fin cfg2.N, (cfg2.win 2).flush t = true ∧ i ∈ ((cfg2.win 2).blk t).view.set := by
  have hi0 : (i 0).val < 4096 := (i 0).isLt
  have hi1 : (i 1).val < 64 := (i 1).isLt
  obtain ⟨t, ht⟩ := idx_onto2 ⟨(i 0).val / 256, by omega⟩
  have q0 : win2_2.index t (0 : Fin 2) = (i 0).val / 256 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 256 ≤ (i 0).val ∧ (i 0).val < win2_2.index t (0 : Fin 2) * 256 + 256; omega
  | ⟨1, _⟩ => show win2_2.index t (1 : Fin 2) * 64 ≤ (i 1).val ∧ (i 1).val < win2_2.index t (1 : Fin 2) * 64 + 64; omega

/-- The output array after the kernel: adj · hw. -/
theorem final2 (c : Dev nD) : (dat2 V c).arrAt 2 cfg2.N = G2 V c :=
  (dat2 V c).arrAt_eq_of_cover 2 (G2 V c) (fun t _ => flushed2_eq V c t) cover2

end Cert.KernelIdeal.Hand

end
-- ==== Proof.KIValue3.lean ====
/-
  The decoder's output array, whole: logistic(z · zᵀ).

  At grid point t the kernel reads rows 256·t … 256·t + 255 of the latent matrix z through one window and the whole of
  z through the other, and writes rows 256·t … 256·t + 255 of its output: row p of what it stores is row 256·t + p of
  logistic(z · zᵀ). The sixteen blocks of 256 rows cover the 4096 rows, so the output array ends holding
  logistic(z · zᵀ).
-/
import proofs.«116482_g15831249453334_cont_week2b_1002_2_alg».proof.Proof.KIData
import proofs.«116482_g15831249453334_cont_week2b_1002_2_alg».proof.Proof.Payloads
import proofs.«116482_g15831249453334_cont_week2b_1002_2_alg».proof.Proof.SpecRows
import Idealize.ShloMosaic.Lib.Pipeline.Value

set_option maxRecDepth 16384

noncomputable section

open scoped BigOperators

namespace Cert.KernelIdeal.Hand

open Cert.KernelIdeal Cert.KernelIdeal.Gen Cert.Encoder
open Idealize.ShloMosaic Idealize.ShloMosaic.TcCoe Idealize.ShloMosaic.ValueIdx
open Idealize.SL Idealize.SL.Sem
open Idealize.ShloMosaic.Pipeline (Dat Cfg Window)

-- the TensorCore's buffer contents when the kernel is entered, at the ideal values
variable (V : (c : Dev nD) → (b : Ref sig .tc) → Buf (Elt Ideal) ((c : Thread nD τ).loc b))

theorem hz3 : (![0, 0] : Fin 2 → Nat) = fun _ => 0 := funext fun a => by fin_cases a <;> rfl

/-- The block index maps over the grid: the row-block window and the output window move together along the rows,
    every other coordinate of every window stays at block 0, and there are sixteen row blocks. -/
theorem idx_facts3 : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 15 :=
  (by decide +kernel : ∀ t : Fin grid3.N, _)

/-- Every row block is some point's. -/
theorem idx_onto3 : ∀ q0 : Fin 16, ∃ t : Fin cfg3.N, win3_2.index t = ![q0.val, 0] :=
  (by decide +kernel : ∀ q0 : Fin 16, ∃ t : Fin grid3.N, win3_2.index t = ![q0.val, 0])

/-- The row of the array that row `p` of point `t`'s block is. -/
def rowOf3 (t : Fin cfg3.N) (p : Fin 256) : Fin 4096 :=
  ⟨win3_2.index t (0 : Fin 2) * 256 + p.val, by have := (idx_facts3 t).2.2.2.2.2; have := p.isLt; omega⟩

/-- The first window's block at point `t`: rows 256·t … of the latent matrix. -/
theorem blk3_0 (c : Dev nD) (t : Fin cfg3.N) (p : Fin 256) (k : Fin 32) :
    iblk3 V c 0 t (ix2 p k) = V c main_v7 (ix2 (rowOf3 t p) k) := by
  obtain ⟨e00, e01, -⟩ := idx_facts3 t
  show V c main_v7 (((cfg3.win 0).blk t).view.emb (ix2 p k)) = _
  refine congrArg (V c main_v7) (funext fun a => Fin.ext ?_)
  match a with
  | ⟨0, _⟩ => show win3_0.index t (0 : Fin 2) * 256 + 1 * p.val = win3_2.index t (0 : Fin 2) * 256 + p.val; omega
  | ⟨1, _⟩ => show win3_0.index t (1 : Fin 2) * 32 + 1 * k.val = k.val; omega

/-- The second window's block is the whole latent matrix. -/
theorem blk3_1 (c : Dev nD) (t : Fin cfg3.N) (q : Fin 4096) (k : Fin 32) :
    iblk3 V c 1 t (ix2 q k) = V c main_v7 (ix2 q k) := by
  obtain ⟨-, -, e10, e11, -⟩ := idx_facts3 t
  show V c main_v7 (((cfg3.win 1).blk t).view.emb (ix2 q k)) = _
  refine congrArg (V c main_v7) (funext fun a => Fin.ext ?_)
  match a with
  | ⟨0, _⟩ => show win3_1.index t (0 : Fin 2) * 4096 + 1 * q.val = q.val; omega
  | ⟨1, _⟩ => show win3_1.index t (1 : Fin 2) * 32 + 1 * k.val = k.val; omega

/-- The whole result: logistic(z · zᵀ) of the latent matrix as the kernel finds it. -/
def G3 (c : Dev nD) : FVec Ideal ⟨2, ![4096, 4096]⟩ .f32 :=
  logisticA (mmT (φ₁ := .bf16) (φ₂ := .bf16) (V c main_v7) (V c main_v7))

/-- What point `t` writes back is block `t` of the whole result. -/
theorem flushed3_eq (c : Dev nD) (t : Fin cfg3.N) :
    (dat3 V c).flushed 2 t = ((cfg3.win 2).blk t).view.read (Elt Ideal) (G3 V c) := by
  show (cfg3.win 2).cut (grid3.coords t) ((dat3 V c).after 2 t) = _
  rw [after3_2]
  unfold out3_2
  rw [View.canon_unit_zero hz3]
  simp only [View.ld_unit_zero (S := S256x32) hz3, View.ld_unit_zero (S := S4096x32) hz3]
  rw [Bridge.pay3]
  obtain ⟨-, -, -, -, e21, -⟩ := idx_facts3 t
  funext j
  obtain ⟨p, q, rfl⟩ : ∃ (p : Fin 256) (q : Fin 4096), j = ix2 p q := ⟨j 0, j 1, eq_ix2 j⟩
  have hemb : ((cfg3.win 2).blk t).view.emb (ix2 p q) = ix2 (rowOf3 t p) q := funext fun a => Fin.ext (by
    match a with
    | ⟨0, _⟩ => show win3_2.index t (0 : Fin 2) * 256 + 1 * p.val = win3_2.index t (0 : Fin 2) * 256 + p.val; omega
    | ⟨1, _⟩ => show win3_2.index t (1 : Fin 2) * 4096 + 1 * q.val = q.val; omega)
  show _ = G3 V c (((cfg3.win 2).blk t).view.emb (ix2 p q))
  rw [hemb]
  unfold G3
  show logisticA (mmT (φ₁ := .bf16) (φ₂ := .bf16) (iblk3 V c 0 t) (iblk3 V c 1 t)) (ix2 p q) = _
  refine logisticA_rows (mmT (φ₁ := .bf16) (φ₂ := .bf16) (V c main_v7) (V c main_v7))
    (mmT (φ₁ := .bf16) (φ₂ := .bf16) (iblk3 V c 0 t) (iblk3 V c 1 t)) (rowOf3 t) (fun p' q' => ?_) p q
  refine (mmT_rows (V c main_v7) (iblk3 V c 0 t) (iblk3 V c 1 t) (rowOf3 t) (fun p3 k => blk3_0 V c t p3 k) p' q').trans ?_
  rw [mmT_apply, mmT_apply]
  exact Finset.sum_congr rfl fun k _ => by rw [blk3_1]

/-- An index of the output array is in point `t`'s block iff each coordinate is in the block's range on its axis. -/
theorem mem_blk3 (t : Fin cfg3.N) (i : S4096x4096.Idx) :
    i ∈ ((cfg3.win 2).blk t).view.set ↔ ∀ a : Fin 2, win3_2.index t a * S256x4096.size a ≤ (i a).val ∧ (i a).val < win3_2.index t a * S256x4096.size a + S256x4096.size a := by
  show i ∈ ((View.whole main_v8).slice (win3_2.rect t)).set ↔ _
  rw [View.set_slice_whole, Rect.mem_set_unit]
  exact Iff.rfl

/-- The sixteen row blocks cover the output array: row r is in block r / 256. -/
theorem cover3 (i : S4096x4096.Idx) : ∃ t : Fin cfg3.N, (cfg3.win 2).flush t = true ∧ i ∈ ((cfg3.win 2).blk t).view.set := by
  have hi0 : (i 0).val < 4096 := (i 0).isLt
  have hi1 : (i 1).val < 4096 := (i 1).isLt
  obtain ⟨t, ht⟩ := idx_onto3 ⟨(i 0).val / 256, by omega⟩
  have q0 : win3_2.index t (0 : Fin 2) = (i 0).val / 256 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 256 ≤ (i 0).val ∧ (i 0).val < win3_2.index t (0 : Fin 2) * 256 + 256; omega
  | ⟨1, _⟩ => show win3_2.index t (1 : Fin 2) * 4096 ≤ (i 1).val ∧ (i 1).val < win3_2.index t (1 : Fin 2) * 4096 + 4096; omega

/-- The output array after the kernel: logistic(z · zᵀ). -/
theorem final3 (c : Dev nD) : (dat3 V c).arrAt 2 cfg3.N = G3 V c :=
  (dat3 V c).arrAt_eq_of_cover 2 (G3 V c) (fun t _ => flushed3_eq V c t) cover3

end Cert.KernelIdeal.Hand

end
-- ==== Proof.HostGlue.lean ====
/-
  The host's layout lines around the four launches, at the ideal values, are the specification's layout blocks.

  Two matrices of 32 columns concatenated along the columns, then narrowed (the identity at the ideal values), are
  the two laid side by side; the unit-stride slices of a 64-column matrix at column offsets 0 and 32 are the left
  and the right half of its columns.
-/
import proofs.«116482_g15831249453334_cont_week2b_1002_2_alg».proof.KernelIdeal
import proofs.«116482_g15831249453334_cont_week2b_1002_2_alg».proof.Proof.Spec
import Idealize.ShloMosaic.Lib.Pipeline.Value
import Idealize.ShloMosaic.Lib.ValueIdx

noncomputable section

namespace Cert.KernelIdeal.Bridge

open Idealize.ShloMosaic Idealize.ShloMosaic.ValueIdx Cert.Encoder Cert.KernelIdeal

/-- Two matrices side by side, read at a column of the left one. -/
theorem sideBySide_apply_left {M N : ℕ} {φ : FTy} (A B : FVec Ideal ⟨2, ![M, N]⟩ φ) (p : Fin M) (q : Fin (N + N))
    (h : q.val < N) : sideBySide A B (ix2 p q) = A (ix2 p ⟨q.val, h⟩) :=
  dif_pos h

/-- Two matrices side by side, read at a column of the right one. -/
theorem sideBySide_apply_right {M N : ℕ} {φ : FTy} (A B : FVec Ideal ⟨2, ![M, N]⟩ φ) (p : Fin M) (q : Fin (N + N))
    (h : ¬ q.val < N) : sideBySide A B (ix2 p q) = B (ix2 p ⟨q.val - N, by have := q.isLt; omega⟩) :=
  dif_neg h

variable [Facts₀]
open Facts₀

/-- The concatenation of two 64×32 matrices along the columns, narrowed, is the two laid side by side. -/
theorem wc_eq (a b : FVec Ideal S64x32 .f32) :
    (truncf .bf16 (concatenate S64x64 1 [⟨S64x32, a⟩, ⟨S64x32, b⟩] concatenates_S64x32_S64x32_S64x64_d1) bitsLt_bf16_f32
      : FVec Ideal S64x64 .bf16) = sideBySide (N := 32) a b := by
  funext j
  obtain ⟨p, q, rfl⟩ : ∃ (p : Fin 64) (q : Fin 64), j = ix2 p q := ⟨j 0, j 1, eq_ix2 j⟩
  show concatenate S64x64 1 [⟨S64x32, a⟩, ⟨S64x32, b⟩] concatenates_S64x32_S64x32_S64x64_d1 (ix2 p q)
    = sideBySide (N := 32) a b (ix2 p q)
  by_cases h : q.val < 32
  · refine Eq.trans ?_ (sideBySide_apply_left (N := 32) a b p q h).symm
    exact concatenate_pair_apply_left (1 : Fin 2) a b concatenates_S64x32_S64x32_S64x64_d1 (ix2 p q) rfl
      (ix2 p ⟨q.val, h⟩) (Fin.forall_fin_two.2 ⟨rfl, rfl⟩)
  · refine Eq.trans ?_ (sideBySide_apply_right (N := 32) a b p q h).symm
    refine concatenate_pair_apply_right (1 : Fin 2) a b concatenates_S64x32_S64x32_S64x64_d1 (ix2 p q) rfl rfl
      (ix2 p ⟨q.val - 32, by have := q.isLt; omega⟩) (Fin.forall_fin_two.2 ⟨fun _ => rfl, fun hne => (hne (Fin.ext rfl)).elim⟩) ?_
    show q.val - 32 + 32 = q.val
    omega

/-- The slice of a 4096×64 matrix at column offset 0 and width 32 is the left half of its columns. -/
theorem mu_eq (x : FVec Ideal S4096x64 .f32) :
    extractStridedSlice S4096x32 ![0, 0] x slices_S4096x64_S4096x32_0_0 = leftCols (N := 32) x := by
  funext j
  obtain ⟨p, q, rfl⟩ : ∃ (p : Fin 4096) (q : Fin 32), j = ix2 p q := ⟨j 0, j 1, eq_ix2 j⟩
  show extractStridedSlice S4096x32 ![0, 0] x slices_S4096x64_S4096x32_0_0 (ix2 p q)
    = x (ix2 p ⟨q.val, by have := q.isLt; omega⟩)
  refine extractStridedSlice_apply ![0, 0] x slices_S4096x64_S4096x32_0_0 (ix2 p q) _ (Fin.forall_fin_two.2 ⟨?_, ?_⟩)
  · show p.val = 0 + p.val
    omega
  · show q.val = 0 + q.val
    omega

/-- The slice of a 4096×64 matrix at column offset 32 and width 32 is the right half of its columns. -/
theorem logvar_eq (x : FVec Ideal S4096x64 .f32) :
    extractStridedSlice S4096x32 ![0, 32] x slices_S4096x64_S4096x32_0_32 = rightCols (N := 32) x := by
  funext j
  obtain ⟨p, q, rfl⟩ : ∃ (p : Fin 4096) (q : Fin 32), j = ix2 p q := ⟨j 0, j 1, eq_ix2 j⟩
  show extractStridedSlice S4096x32 ![0, 32] x slices_S4096x64_S4096x32_0_32 (ix2 p q)
    = x (ix2 p ⟨q.val + 32, by have := q.isLt; omega⟩)
  refine extractStridedSlice_apply ![0, 32] x slices_S4096x64_S4096x32_0_32 (ix2 p q) _ (Fin.forall_fin_two.2 ⟨?_, ?_⟩)
  · show p.val = 0 + p.val
    omega
  · show q.val + 32 = 32 + q.val
    omega

end Cert.KernelIdeal.Bridge

end
-- ==== Proof.KIValues.lean ====
/-
  What the program's results are, as functions of its arguments, at the ideal values.

  Reading the fold of buffer contents from the end back to the launch: the decoder's output is logistic(z · zᵀ) of
  the latent matrix z it found; z is the left half of the columns of the third kernel's output; that output is
  adj · hw; hw, the second kernel's output, is max(adj · s, 0) · [W₂ | W₃]; s, the first kernel's output, is x · W₁.
  Rounding to a narrower float format is the identity on the ideal values. The left half of the columns of
  adj · (h · [W₂ | W₃]) is adj · (h · W₂) and the right half adj · (h · W₃): a column of a product reads the same
  column of the right factor only. So the three results are  logistic(μ · μᵀ),  μ = adj · (h · W₂)  and
  adj · (h · W₃),  with  h = max(adj · (x · W₁), 0).
-/
import proofs.«116482_g15831249453334_cont_week2b_1002_2_alg».proof.Proof.KILaunch
import proofs.«116482_g15831249453334_cont_week2b_1002_2_alg».proof.Proof.KIValue0
import proofs.«116482_g15831249453334_cont_week2b_1002_2_alg».proof.Proof.KIValue1
import proofs.«116482_g15831249453334_cont_week2b_1002_2_alg».proof.Proof.KIValue2
import proofs.«116482_g15831249453334_cont_week2b_1002_2_alg».proof.Proof.KIValue3
import proofs.«116482_g15831249453334_cont_week2b_1002_2_alg».proof.Proof.HostGlue
import Idealize.ShloMosaic.Lib.StableHlo.Run

set_option maxRecDepth 16384

noncomputable section

open scoped BigOperators

namespace Cert.KernelIdeal.Hand

open Cert.KernelIdeal Cert.KernelIdeal.Gen Cert.Encoder
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The five arguments as launched. -/
abbrev xA (c : Dev nD) : FVec Ideal ⟨2, ![4096, 128]⟩ .f32 := m ((c : Thread nD τ).loc main_arg0)
abbrev adjA (c : Dev nD) : FVec Ideal ⟨2, ![4096, 4096]⟩ .f32 := m ((c : Thread nD τ).loc main_arg1)
abbrev w1A (c : Dev nD) : FVec Ideal ⟨2, ![128, 64]⟩ .f32 := m ((c : Thread nD τ).loc main_arg2)
abbrev w2A (c : Dev nD) : FVec Ideal ⟨2, ![64, 32]⟩ .f32 := m ((c : Thread nD τ).loc main_arg3)
abbrev w3A (c : Dev nD) : FVec Ideal ⟨2, ![64, 32]⟩ .f32 := m ((c : Thread nD τ).loc main_arg4)

/-- The hidden layer h = max(adj · (x · W₁), 0). -/
def hiddenK (c : Dev nD) : FVec Ideal ⟨2, ![4096, 64]⟩ .f32 :=
  relu (mm (φ₁ := .f32) (φ₂ := .f32) (adjA m c) (mm (φ₁ := .f32) (φ₂ := .f32) (xA m c) (w1A m c)))
/-- μ = adj · (h · W₂). -/
def muK (c : Dev nD) : FVec Ideal ⟨2, ![4096, 32]⟩ .f32 :=
  mm (φ₁ := .f32) (φ₂ := .f32) (adjA m c) (mm (φ₁ := .f32) (φ₂ := .f32) (hiddenK m c) (w2A m c))
/-- logvar = adj · (h · W₃). -/
def logvarK (c : Dev nD) : FVec Ideal ⟨2, ![4096, 32]⟩ .f32 :=
  mm (φ₁ := .f32) (φ₂ := .f32) (adjA m c) (mm (φ₁ := .f32) (φ₂ := .f32) (hiddenK m c) (w3A m c))
/-- The decoder's result logistic(μ · μᵀ). -/
def decodeK (c : Dev nD) : FVec Ideal ⟨2, ![4096, 4096]⟩ .f32 :=
  logisticA (mmT (φ₁ := .f32) (φ₂ := .f32) (muK m c) (muK m c))

/-! ## Before the first kernel -/

theorem V1_arg0 (c : Dev nD) : V1 m c main_arg0 = xA m c := by
  show StableHlo.after hostOps0 (W0 m c) (Proc.devRef .tc main_arg0) = _
  after_results <;> rfl
theorem V1_arg1 (c : Dev nD) : V1 m c main_arg1 = adjA m c := by
  show StableHlo.after hostOps0 (W0 m c) (Proc.devRef .tc main_arg1) = _
  after_results <;> rfl
theorem V1_arg2 (c : Dev nD) : V1 m c main_arg2 = w1A m c := by
  show StableHlo.after hostOps0 (W0 m c) (Proc.devRef .tc main_arg2) = _
  after_results <;> rfl
/-- The two weight matrices laid side by side (and rounded, which changes nothing here). -/
theorem V1_v1 (c : Dev nD) : V1 m c main_v1 = sideBySide (N := 32) (w2A m c) (w3A m c) := by
  refine Eq.trans ?_ (Bridge.wc_eq (w2A m c) (w3A m c))
  show StableHlo.after hostOps0 (W0 m c) (Proc.devRef .tc main_v1) = _
  after_results <;> rfl

/-! ## After the first kernel: s = x · W₁ -/

theorem V2_v2 (c : Dev nD) : V2 m c main_v2 = mm (φ₁ := .f32) (φ₂ := .f32) (xA m c) (w1A m c) := by
  refine ((hF0 m c 2).symm.trans (final0 (V1 m) c)).trans ?_
  unfold G0; rw [V1_arg0, V1_arg2]
theorem V2_arg1 (c : Dev nD) : V2 m c main_arg1 = adjA m c :=
  (W2_of_ne m c main_arg1 (by decide)).trans (V1_arg1 m c)
theorem V2_v1 (c : Dev nD) : V2 m c main_v1 = sideBySide (N := 32) (w2A m c) (w3A m c) :=
  (W2_of_ne m c main_v1 (by decide)).trans (V1_v1 m c)

/-! ## After the second kernel: hw = h · [W₂ | W₃] -/

theorem V3_v3 (c : Dev nD) : V3 m c main_v3
    = mm (φ₁ := .f32) (φ₂ := .f32) (hiddenK m c) (sideBySide (N := 32) (w2A m c) (w3A m c)) := by
  refine ((hF1 m c 3).symm.trans (final1 (V2 m) c)).trans ?_
  unfold G1 hiddenK; rw [V2_arg1, V2_v2, V2_v1]; rfl
theorem V3_arg1 (c : Dev nD) : V3 m c main_arg1 = adjA m c :=
  ((W3_arr m c 0).trans (((dat1 (V2 m) c).arrAt_in 0 rfl _).trans (A_eq1 (V2 m) c 0))).trans (V2_arg1 m c)

/-! ## After the third kernel: adj · hw -/

theorem V4_v4 (c : Dev nD) : V4 m c main_v4
    = mm (φ₁ := .f32) (φ₂ := .f32) (adjA m c) (mm (φ₁ := .f32) (φ₂ := .f32) (hiddenK m c) (sideBySide (N := 32) (w2A m c) (w3A m c))) := by
  refine ((hF2 m c 2).symm.trans (final2 (V3 m) c)).trans ?_
  unfold G2; rw [V3_arg1, V3_v3]; rfl

/-! ## After the second stretch of host lines: the two halves of the columns -/

theorem V5_v5 (c : Dev nD) : V5 m c main_v5 = muK m c := by
  refine Eq.trans (?_ : _ = leftCols (N := 32) (φ := .f32) (V4 m c main_v4)) ?_
  · refine Eq.trans ?_ (Bridge.mu_eq (V4 m c main_v4))
    show StableHlo.after hostOps3 (W4 m c) (Proc.devRef .tc main_v5) = _
    after_results <;> rfl
  · rw [V4_v4, leftCols_mm, leftCols_mm_sideBySide]; rfl
theorem V5_v6 (c : Dev nD) : V5 m c main_v6 = logvarK m c := by
  refine Eq.trans (?_ : _ = rightCols (N := 32) (φ := .f32) (V4 m c main_v4)) ?_
  · refine Eq.trans ?_ (Bridge.logvar_eq (V4 m c main_v4))
    show StableHlo.after hostOps3 (W4 m c) (Proc.devRef .tc main_v6) = _
    after_results <;> rfl
  · rw [V4_v4, rightCols_mm, rightCols_mm_sideBySide]; rfl
/-- The latent matrix the decoder reads: μ (rounded, which changes nothing here). -/
theorem V5_v7 (c : Dev nD) : V5 m c main_v7 = muK m c := by
  refine Eq.trans ?_ (V5_v5 m c)
  show StableHlo.after hostOps3 (W4 m c) (Proc.devRef .tc main_v7) = StableHlo.after hostOps3 (W4 m c) (Proc.devRef .tc main_v5)
  after_results <;> rfl

/-! ## The three results at the end -/

theorem V6_v8 (c : Dev nD) : V6 m c main_v8 = decodeK m c := by
  refine ((W6_out m c).trans (final3 (V5 m) c)).trans ?_
  unfold G3 decodeK; rw [V5_v7]; rfl
theorem V6_v5 (c : Dev nD) : V6 m c main_v5 = muK m c :=
  (W6_of_ne m c main_v5 (by decide)).trans (V5_v5 m c)
theorem V6_v6 (c : Dev nD) : V6 m c main_v6 = logvarK m c :=
  (W6_of_ne m c main_v6 (by decide)).trans (V5_v6 m c)

end Cert.KernelIdeal.Hand

end
-- ==== Proof.RefIsSpec.lean ====
/-
  The reference program's results, at the ideal values, are the graph auto-encoder's specification.

  Each host product here contracts the left operand's columns with the right operand's rows, so it is the matrix
  product; the maximum with the zero array is the rectifier; and the expression 1 / (1 + exp (−z)), entry by entry,
  is the logistic function. The product of μ with its own transpose is the product-with-a-transpose of μ and μ.
-/
import proofs.«116482_g15831249453334_cont_week2b_1002_2_alg».proof.Proof.Gen.ReferenceIdeal.Run
import proofs.«116482_g15831249453334_cont_week2b_1002_2_alg».proof.Proof.Spec
import proofs.«116482_g15831249453334_cont_week2b_1002_2_alg».proof.Proof.LibPlainDot
import Idealize.ShloMosaic.Lib.Pipeline.Value
import Idealize.ShloMosaic.Lib.ValueIdx
import Idealize.ShloMosaic.Lib.ValueLayout
import Idealize.ShloMosaic.Lib.IdealHost

noncomputable section

open scoped BigOperators

namespace Cert.ReferenceIdeal.Bridge

open Cert.ReferenceIdeal Cert.ReferenceIdeal.Gen Idealize.ShloMosaic Idealize.ShloMosaic.ValueIdx Cert.Encoder

/-- a host product contracting the left operand's columns with the right operand's rows is the matrix product -/
theorem hostDot_eq_mm {M K N : ℕ} {φ₁ φ₂ : FTy} (d : DotDims ⟨2, ![M, K]⟩ ⟨2, ![K, N]⟩ ⟨2, ![M, N]⟩)
    (hd : d = DotDims.plain M K N) (prec : Option ContractPrecision)
    (L : FVec Ideal ⟨2, ![M, K]⟩ φ₁) (R : FVec Ideal ⟨2, ![K, N]⟩ φ₂) :
    Host.dotGeneral (F := Ideal) d prec L R = mm L R := by
  funext j
  obtain ⟨p, q, rfl⟩ : ∃ (p : Fin M) (q : Fin N), j = ix2 p q := ⟨j 0, j 1, eq_ix2 j⟩
  exact (Cert.PlainDot.hostDot_apply d hd prec L R p q).trans (mm_apply L R p q).symm

/-- the hidden layer: relu (adj · (x · W1)) -/
theorem hidden_eq (x : FVec Ideal S4096x128 .f32) (adj : FVec Ideal S4096x4096 .f32) (W1 : FVec Ideal S128x64 .f32) :
    maximumf (Host.dotGeneral (F := Ideal) dot_S4096x4096_S4096x64_S4096x64_1_0_0_1_n_n none adj
        (Host.dotGeneral (F := Ideal) dot_S4096x128_S128x64_S4096x64_1_0_0_1_n_n none x W1))
      (broadcastInDim S4096x64 ![] bcast_S_S4096x64 (constant (F := Ideal) S_ .f32 0x00000000#32))
      = relu (mm adj (mm x W1)) := by
  rw [hostDot_eq_mm dot_S4096x128_S128x64_S4096x64_1_0_0_1_n_n rfl none x W1,
    hostDot_eq_mm dot_S4096x4096_S4096x64_S4096x64_1_0_0_1_n_n rfl none adj (mm x W1)]
  funext j
  rw [maximumf_apply, broadcastInDim_scalar_apply, constant_apply, Ideal.ofBits_zero_f32, relu_apply]

/-- one graph-convolution output: adj · (h · W) -/
theorem conv_eq (h : FVec Ideal S4096x64 .f32) (adj : FVec Ideal S4096x4096 .f32) (W : FVec Ideal S64x32 .f32) :
    Host.dotGeneral (F := Ideal) dot_S4096x4096_S4096x32_S4096x32_1_0_0_1_n_n none adj
        (Host.dotGeneral (F := Ideal) dot_S4096x64_S64x32_S4096x32_1_0_0_1_n_n none h W)
      = mm adj (mm h W) := by
  rw [hostDot_eq_mm dot_S4096x64_S64x32_S4096x32_1_0_0_1_n_n rfl none h W,
    hostDot_eq_mm dot_S4096x4096_S4096x32_S4096x32_1_0_0_1_n_n rfl none adj (mm h W)]

/-- the product of a matrix with its own transpose is the product-with-a-transpose of the matrix and itself -/
theorem hostDot_transpose_eq_mmT (mu : FVec Ideal S4096x32 .f32) :
    Host.dotGeneral (F := Ideal) dot_S4096x32_S32x4096_S4096x4096_1_0_0_1_n_n none mu
        (transpose S32x4096 [1, 0] mu transposes_S4096x32_S32x4096_1_0)
      = mmT mu mu := by
  funext j
  obtain ⟨p, q, rfl⟩ : ∃ (p : Fin 4096) (q : Fin 4096), j = ix2 p q := ⟨j 0, j 1, eq_ix2 j⟩
  refine (Cert.PlainDot.hostDot_apply dot_S4096x32_S32x4096_S4096x4096_1_0_0_1_n_n rfl none mu _ p q).trans ?_
  refine (Finset.sum_congr rfl fun k _ => ?_).trans (mmT_apply mu mu p q).symm
  exact congrArg (fun t => mu (ix2 p k) * t) (transpose_ix2_apply mu transposes_S4096x32_S32x4096_1_0 k q)

/-- the decoder: logistic (mu · muᵀ), the expansion 1 / (1 + exp (−z)) being the logistic function -/
theorem decode_eq (mu : FVec Ideal S4096x32 .f32) :
    Host.divf (F := Ideal) (broadcastInDim S4096x4096 ![] bcast_S_S4096x4096 (constant (F := Ideal) S_ .f32 0x3F800000#32))
        (addf (broadcastInDim S4096x4096 ![] bcast_S_S4096x4096 (constant (F := Ideal) S_ .f32 0x3F800000#32))
          (Host.exp (F := Ideal) (Host.negf (F := Ideal)
            (Host.dotGeneral (F := Ideal) dot_S4096x32_S32x4096_S4096x4096_1_0_0_1_n_n none mu
              (transpose S32x4096 [1, 0] mu transposes_S4096x32_S32x4096_1_0)))))
      = logisticA (mmT mu mu) := by
  rw [hostDot_transpose_eq_mmT mu]
  funext j
  rw [hostDivf_apply, addf_apply, broadcastInDim_scalar_apply, constant_apply, Ideal.ofBits_one_f32, logisticA_apply]
  rfl

/-- the reference's mean output: adj · (relu (adj · (x · W1)) · W2) -/
theorem mu_ref_eq (x : FVec Ideal S4096x128 .f32) (adj : FVec Ideal S4096x4096 .f32) (W1 : FVec Ideal S128x64 .f32)
    (W2 : FVec Ideal S64x32 .f32) :
    Host.dotGeneral (F := Ideal) dot_S4096x4096_S4096x32_S4096x32_1_0_0_1_n_n none adj
        (Host.dotGeneral (F := Ideal) dot_S4096x64_S64x32_S4096x32_1_0_0_1_n_n none
          (maximumf (Host.dotGeneral (F := Ideal) dot_S4096x4096_S4096x64_S4096x64_1_0_0_1_n_n none adj
              (Host.dotGeneral (F := Ideal) dot_S4096x128_S128x64_S4096x64_1_0_0_1_n_n none x W1))
            (broadcastInDim S4096x64 ![] bcast_S_S4096x64 (constant (F := Ideal) S_ .f32 0x00000000#32))) W2)
      = mm adj (mm (relu (mm adj (mm x W1))) W2) := by
  rw [hidden_eq x adj W1, conv_eq (relu (mm adj (mm x W1))) adj W2]

/-- the reference's decoded output: logistic (μ · μᵀ) at μ = adj · (relu (adj · (x · W1)) · W2) -/
theorem decode_ref_eq (x : FVec Ideal S4096x128 .f32) (adj : FVec Ideal S4096x4096 .f32) (W1 : FVec Ideal S128x64 .f32)
    (W2 : FVec Ideal S64x32 .f32) :
    Host.divf (F := Ideal) (broadcastInDim S4096x4096 ![] bcast_S_S4096x4096 (constant (F := Ideal) S_ .f32 0x3F800000#32))
        (addf (broadcastInDim S4096x4096 ![] bcast_S_S4096x4096 (constant (F := Ideal) S_ .f32 0x3F800000#32))
          (Host.exp (F := Ideal) (Host.negf (F := Ideal)
            (Host.dotGeneral (F := Ideal) dot_S4096x32_S32x4096_S4096x4096_1_0_0_1_n_n none
              (Host.dotGeneral (F := Ideal) dot_S4096x4096_S4096x32_S4096x32_1_0_0_1_n_n none adj
                (Host.dotGeneral (F := Ideal) dot_S4096x64_S64x32_S4096x32_1_0_0_1_n_n none
                  (maximumf (Host.dotGeneral (F := Ideal) dot_S4096x4096_S4096x64_S4096x64_1_0_0_1_n_n none adj
                      (Host.dotGeneral (F := Ideal) dot_S4096x128_S128x64_S4096x64_1_0_0_1_n_n none x W1))
                    (broadcastInDim S4096x64 ![] bcast_S_S4096x64 (constant (F := Ideal) S_ .f32 0x00000000#32))) W2))
              (transpose S32x4096 [1, 0]
                (Host.dotGeneral (F := Ideal) dot_S4096x4096_S4096x32_S4096x32_1_0_0_1_n_n none adj
                  (Host.dotGeneral (F := Ideal) dot_S4096x64_S64x32_S4096x32_1_0_0_1_n_n none
                    (maximumf (Host.dotGeneral (F := Ideal) dot_S4096x4096_S4096x64_S4096x64_1_0_0_1_n_n none adj
                        (Host.dotGeneral (F := Ideal) dot_S4096x128_S128x64_S4096x64_1_0_0_1_n_n none x W1))
                      (broadcastInDim S4096x64 ![] bcast_S_S4096x64 (constant (F := Ideal) S_ .f32 0x00000000#32))) W2))
                transposes_S4096x32_S32x4096_1_0)))))
      = logisticA (mmT (mm adj (mm (relu (mm adj (mm x W1))) W2)) (mm adj (mm (relu (mm adj (mm x W1))) W2))) := by
  rw [mu_ref_eq x adj W1 W2]
  exact decode_eq (mm adj (mm (relu (mm adj (mm x W1))) W2))

end Cert.ReferenceIdeal.Bridge

end
-- ==== Proof.lean ====
/-
  A graph auto-encoder's forward pass: a kernel pipeline against its plain reference, on the extended reals.

  The reference computes  s = x · W₁,  h = max(adj · s, 0),  μ = adj · (h · W₂),  logvar = adj · (h · W₃)  and
  logistic(μ · μᵀ), one whole matrix product after another. The kernel program computes the same in four kernels,
  each working on 256 rows at a time: x · W₁; then  max(adj · s, 0) · [W₂ | W₃]  with the two weight matrices laid
  side by side; then adj times that, whose left and right column halves are μ and logvar; then  logistic(μ · μᵀ).
  On the extended reals rounding to a narrower float format is the identity, a matrix product computed 256 rows at
  a time is the matrix product (a row of a product reads the same row of the left factor only), and a product with
  two matrices side by side is the two products side by side (a column of a product reads the same column of the
  right factor only). Nothing else separates the two programs: the sums are the same sums, term by term, so the
  equality needs neither distributivity nor the finiteness of the inputs. The logistic function is one function on
  both sides: the reference's 1 / (1 + exp(−z)) is its definition.

  Each program also runs to the end from any memory, faults nowhere and leaves its five argument arrays as launched:
  for the kernel program (at the machine's words and at the ideal values alike) by following the buffers' contents
  through the four kernels and the host lines between them; for the reference by its operations' run.
-/
import proofs.«116482_g15831249453334_cont_week2b_1002_2_alg».proof.Defs
import proofs.«116482_g15831249453334_cont_week2b_1002_2_alg».proof.Proof.Gen.Kernel
import proofs.«116482_g15831249453334_cont_week2b_1002_2_alg».proof.Proof.Gen.KernelIdeal
import proofs.«116482_g15831249453334_cont_week2b_1002_2_alg».proof.Proof.Gen.ReferenceIdeal
import proofs.«116482_g15831249453334_cont_week2b_1002_2_alg».proof.Proof.Gen.Pre_finite_inputs
import proofs.«116482_g15831249453334_cont_week2b_1002_2_alg».proof.Proof.Gen.ReferenceIdeal.Run
import proofs.«116482_g15831249453334_cont_week2b_1002_2_alg».proof.Proof.KLaunch
import proofs.«116482_g15831249453334_cont_week2b_1002_2_alg».proof.Proof.KIValues
import proofs.«116482_g15831249453334_cont_week2b_1002_2_alg».proof.Proof.RefIsSpec
import Idealize.ShloMosaic.Adequacy
import Idealize.ShloMosaic.Init

noncomputable section

namespace Cert.Proof

open Idealize.ShloMosaic Idealize.SL.Sem

/-- The kernel program at the machine's words runs and keeps its arguments. -/
theorem frame_k : Cert.frame_Kernel := fun m ρ _ => Cert.Kernel.Hand.frame m ρ

/-- The kernel program at the ideal values runs and keeps its arguments. -/
theorem frame_ki : Cert.frame_KernelIdeal := fun m ρ _ => Cert.KernelIdeal.Hand.frame m ρ

/-- The reference runs and keeps its arguments: its operations' run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

open Cert.KernelIdeal.Hand in
/-- Both programs end with logistic(μ · μᵀ), μ = adj · (h · W₂) and adj · (h · W₃), h = max(adj · (x · W₁), 0), of
    arguments that agree. -/
theorem algebraic : Cert.algebraic_KernelIdeal_ReferenceIdeal := by
  intro m ρ m' ρ' _ hagree
  refine ⟨fun c => decodeK m c, fun c => muK m c, fun c => logvarK m c, ?_, ?_⟩
  · exact (θ_run Cert.KernelIdeal.defs _ _).mono (fun r h c =>
      ⟨(h c _ (mem_uc Cert.KernelIdeal.main_v8 (by decide))).trans (V6_v8 m c),
       (h c _ (mem_uc Cert.KernelIdeal.main_v5 (by decide))).trans (V6_v5 m c),
       (h c _ (mem_uc Cert.KernelIdeal.main_v6 (by decide))).trans (V6_v6 m c),
       (h c _ (mem_uc Cert.KernelIdeal.main_arg0 (by decide))).trans (W6_main_arg0 m c),
       (h c _ (mem_uc Cert.KernelIdeal.main_arg1 (by decide))).trans (W6_main_arg1 m c),
       (h c _ (mem_uc Cert.KernelIdeal.main_arg2 (by decide))).trans (W6_main_arg2 m c),
       (h c _ (mem_uc Cert.KernelIdeal.main_arg3 (by decide))).trans (W6_main_arg3 m c),
       (h c _ (mem_uc Cert.KernelIdeal.main_arg4 (by decide))).trans (W6_main_arg4 m c)⟩) (run_all m ρ)
  · refine (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')
    · rw [(hagree c).1, (hagree c).2.1, (hagree c).2.2.1, (hagree c).2.2.2.1, Cert.ReferenceIdeal.Bridge.decode_ref_eq]
      rfl
    · rw [(hagree c).1, (hagree c).2.1, (hagree c).2.2.1, (hagree c).2.2.2.1, Cert.ReferenceIdeal.Bridge.mu_ref_eq]
      rfl
    · rw [(hagree c).1, (hagree c).2.1, (hagree c).2.2.1, (hagree c).2.2.2.2, Cert.ReferenceIdeal.Bridge.mu_ref_eq]
      rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
